-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S500x128 : Shape := ⟨2, ![500, 128]⟩
abbrev S365x128 : Shape := ⟨2, ![365, 128]⟩
abbrev S1600000 : Shape := ⟨1, ![1600000]⟩
abbrev S131072 : Shape := ⟨1, ![131072]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500x128 : S_.BroadcastsInDim S500x128 (![] : Fin 0 → Fin S500x128.rank)
  reducesTo_S500x128_S_d0_1 : S500x128.ReducesTo [0, 1] S_
  bcast_S_S365x128 : S_.BroadcastsInDim S365x128 (![] : Fin 0 → Fin S365x128.rank)
  reducesTo_S365x128_S_d0_1 : S365x128.ReducesTo [0, 1] S_

variable [Facts]

def fn_part1 {F : FTy → Type} [FloatOps F] (main_arg4 : FVec F S365x128 .f32) (main_v13 : IVec S_ 1) (main_v16 : IVec S500x128 1) : IVec S_ 1 :=
  let main_c_5 : IVec S_ 1 := constantI S_ 1 1#1
  let main_v17 : IVec S_ 1 := (fun x v => Host.reduce IntOp.andi x v reducesTo_S500x128_S_d0_1 h_S_) main_v16 main_c_5
  let main_v18 : IVec S_ 1 := andi main_v13 main_v17
  let main_v19 : FVec F S365x128 .f32 := Host.absf main_arg4
  let main_cst_6 : FVec F S_ .f32 := constant S_ .f32 0x7F800000#32
  let main_v20 : FVec F S365x128 .f32 := broadcastInDim S365x128 ![] bcast_S_S365x128 main_cst_6
  let main_v21 : IVec S365x128 1 := cmpf .olt main_v19 main_v20
  let main_c_7 : IVec S_ 1 := constantI S_ 1 1#1
  let main_v22 : IVec S_ 1 := (fun x v => Host.reduce IntOp.andi x v reducesTo_S365x128_S_d0_1 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S500x128 .f32) (main_arg4 : FVec F S365x128 .f32) (main_arg5 : IVec S1600000 32) (main_arg6 : IVec S1600000 32) (main_arg7 : IVec S131072 32) (main_arg8 : IVec S131072 32) (main_arg9 : IVec S131072 32) (main_arg10 : IVec S131072 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S500x128 .f32 := Host.absf main_arg3
  let main_cst_4 : FVec F S_ .f32 := constant S_ .f32 0x7F800000#32
  let main_v15 : FVec F S500x128 .f32 := broadcastInDim S500x128 ![] bcast_S_S500x128 main_cst_4
  let main_v16 : IVec S500x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S500x128 : Shape := ⟨2, ![500, 128]⟩
abbrev S365x128 : Shape := ⟨2, ![365, 128]⟩
abbrev S1600000 : Shape := ⟨1, ![1600000]⟩
abbrev S131072 : Shape := ⟨1, ![131072]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S4000x128 : Shape := ⟨2, ![4000, 128]⟩
abbrev S2x50000x128 : Shape := ⟨3, ![2, 50000, 128]⟩
abbrev S50000x128 : Shape := ⟨2, ![50000, 128]⟩
abbrev S131072x1 : Shape := ⟨2, ![131072, 1]⟩
abbrev S131072x128 : Shape := ⟨2, ![131072, 128]⟩
abbrev S4096x128 : Shape := ⟨2, ![4096, 128]⟩
abbrev S4096x1 : Shape := ⟨2, ![4096, 1]⟩
abbrev S4096 : Shape := ⟨1, ![4096]⟩

abbrev nBuf : Space → Nat
  | .hbm => 85
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S500x128, .f32⟩
  | .hbm, ⟨4, _⟩ => ⟨S365x128, .f32⟩
  | .hbm, ⟨5, _⟩ => ⟨S1600000, .i32⟩
  | .hbm, ⟨6, _⟩ => ⟨S1600000, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S128x128, .f32⟩
  | .hbm, ⟨12, _⟩ => ⟨S1x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S2x50000x128, .f32⟩
  | .hbm, ⟨42, _⟩ => ⟨S_, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S131072x1, .i32⟩
  | .hbm, ⟨55, _⟩ => ⟨S131072x128, .f32⟩
  | .hbm, ⟨56, _⟩ => ⟨S_, .i32⟩
  | .hbm, ⟨57, _⟩ => ⟨S131072, .i32⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S131072x128, .f32⟩
  | .hbm, ⟨65, _⟩ => ⟨S_, .i32⟩
  | .hbm, ⟨66, _⟩ => ⟨S131072, .i32⟩
  | .hbm, ⟨67, _⟩ => ⟨S131072, .i1⟩
  | .hbm, ⟨68, _⟩ => ⟨S_, .i32⟩
  | .hbm, ⟨69, _⟩ => ⟨S131072, .i32⟩
  | .hbm, ⟨70, _⟩ => ⟨S131072, .i32⟩
  | .hbm, ⟨71, _⟩ => ⟨S131072, .i32⟩
  | .hbm, ⟨72, _⟩ => ⟨S131072x1, .i32⟩
  | .hbm, ⟨73, _⟩ => ⟨S131072x128, .f32⟩
  | .hbm, ⟨74, _⟩ => ⟨S_, .i32⟩
  | .hbm, ⟨75, _⟩ => ⟨S131072, .i32⟩
  | .hbm, ⟨76, _⟩ => ⟨S131072, .i1⟩
  | .hbm, ⟨77, _⟩ => ⟨S_, .i32⟩
  | .hbm, ⟨78, _⟩ => ⟨S131072, .i32⟩
  | .hbm, ⟨79, _⟩ => ⟨S131072, .i32⟩
  | .hbm, ⟨80, _⟩ => ⟨S131072, .i32⟩
  | .hbm, ⟨81, _⟩ => ⟨S131072x1, .i32⟩
  | .hbm, ⟨82, _⟩ => ⟨S131072x128, .f32⟩
  | .hbm, ⟨83, _⟩ => ⟨S131072x1, .f32⟩
  | .hbm, ⟨84, _⟩ => ⟨S131072, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x1, .f32⟩
  | .local _ .vmem, ⟨21, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S128x128_S128x128_1_0 : S128x128.Transposes [1, 0] S128x128
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S100000x128_S2x50000x128 : S100000x128.ShapeCasts S2x50000x128
  reducesTo_S2x50000x128_S50000x128_d0 : S2x50000x128.ReducesTo [0] S50000x128
  h_S_ : 0 < S_.numel
  bcast_S_S50000x128 : S_.BroadcastsInDim S50000x128 (![] : Fin 0 → Fin S50000x128.rank)
  bcast_S_S131072 : S_.BroadcastsInDim S131072 (![] : Fin 0 → Fin S131072.rank)
  bcast_S131072_S131072x1_0 : S131072.BroadcastsInDim S131072x1 (![0] : Fin 1 → Fin S131072x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  broadcasts_S4096x1_S4096x128 : S4096x1.Broadcasts S4096x128
  inb_S4096x1_S4096x1_0_0 : ∀ a, (![0, 0] : Fin 2 → Nat) a + S4096x1.size a ≤ S4096x1.size a
  h_S4096x1 : 0 < S4096x1.numel
  shapeCasts_S131072x1_S131072 : S131072x1.ShapeCasts S131072
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  gather_S50000x128_S131072x1_S131072x128_1_0_n_n_0_1_1128_wf : GatherDims.WF S50000x128 S131072x1 S131072x128 [1] [0] [] [0] [] 1 ![1, 128]
  gather_S500x128_S131072x1_S131072x128_1_0_n_n_0_1_1128_wf : GatherDims.WF S500x128 S131072x1 S131072x128 [1] [0] [] [0] [] 1 ![1, 128]
  gather_S365x128_S131072x1_S131072x128_1_0_n_n_0_1_1128_wf : GatherDims.WF S365x128 S131072x1 S131072x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S131072x128.size a
  hwx2_0 : ∀ i : grid2.Coords, EltTy.bits .f32 = 32 ∨ (Rect.block (s := S131072x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S131072x128.size a
  hwx2_1 : ∀ i : grid2.Coords, EltTy.bits .f32 = 32 ∨ (Rect.block (s := S131072x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S131072x128.size a
  hwx2_2 : ∀ i : grid2.Coords, EltTy.bits .f32 = 32 ∨ (Rect.block (s := S131072x128) S4096x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S131072x128.size a
  hwx2_3 : ∀ i : grid2.Coords, EltTy.bits .f32 = 32 ∨ (Rect.block (s := S131072x128) S4096x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x1.size a ≤ S131072x1.size a
  hwx2_4 : ∀ i : grid2.Coords, EltTy.bits .f32 = 32 ∨ (Rect.block (s := S131072x1) S4096x1.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S50000x128_S131072x1_S131072x128_1_0_n_n_0_1_1128 : GatherDims S50000x128 S131072x1 S131072x128 where
  offsetDims := [1]
  collapsedSliceDims := [0]
  operandBatchingDims := []
  startIndicesBatchingDims := []
  startIndexMap := [0]
  indexVectorDim := 1
  sliceSizes := ![1, 128]
  wf := gather_S50000x128_S131072x1_S131072x128_1_0_n_n_0_1_1128_wf
def gather_S500x128_S131072x1_S131072x128_1_0_n_n_0_1_1128 : GatherDims S500x128 S131072x1 S131072x128 where
  offsetDims := [1]
  collapsedSliceDims := [0]
  operandBatchingDims := []
  startIndicesBatchingDims := []
  startIndexMap := [0]
  indexVectorDim := 1
  sliceSizes := ![1, 128]
  wf := gather_S500x128_S131072x1_S131072x128_1_0_n_n_0_1_1128_wf
def gather_S365x128_S131072x1_S131072x128_1_0_n_n_0_1_1128 : GatherDims S365x128 S131072x1 S131072x128 where
  offsetDims := [1]
  collapsedSliceDims := [0]
  operandBatchingDims := []
  startIndicesBatchingDims := []
  startIndexMap := [0]
  indexVectorDim := 1
  sliceSizes := ![1, 128]
  wf := gather_S365x128_S131072x1_S131072x128_1_0_n_n_0_1_1128_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S4096x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v56) S4096x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S500x128 : Shape := ⟨2, ![500, 128]⟩
abbrev S365x128 : Shape := ⟨2, ![365, 128]⟩
abbrev S1600000 : Shape := ⟨1, ![1600000]⟩
abbrev S131072 : Shape := ⟨1, ![131072]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2x50000x128 : Shape := ⟨3, ![2, 50000, 128]⟩
abbrev S50000x128 : Shape := ⟨2, ![50000, 128]⟩
abbrev S131072x1 : Shape := ⟨2, ![131072, 1]⟩
abbrev S131072x128 : Shape := ⟨2, ![131072, 128]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S500x128, .f32⟩
  | 4 => ⟨S365x128, .f32⟩
  | 5 => ⟨S1600000, .i32⟩
  | 6 => ⟨S1600000, .i32⟩
  | 7 => ⟨S131072, .i32⟩
  | 8 => ⟨S131072, .i32⟩
  | 9 => ⟨S131072, .i32⟩
  | 10 => ⟨S131072, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S128x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S128x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S2x50000x128, .f32⟩
  | 54 => ⟨S_, .f32⟩
  | 55 => ⟨S50000x128, .f32⟩
  | 56 => ⟨S_, .f32⟩
  | 57 => ⟨S50000x128, .f32⟩
  | 58 => ⟨S50000x128, .f32⟩
  | 59 => ⟨S_, .i32⟩
  | 60 => ⟨S131072, .i32⟩
  | 61 => ⟨S131072, .i1⟩
  | 62 => ⟨S_, .i32⟩
  | 63 => ⟨S131072, .i32⟩
  | 64 => ⟨S131072, .i32⟩
  | 65 => ⟨S131072, .i32⟩
  | 66 => ⟨S131072x1, .i32⟩
  | 67 => ⟨S131072x128, .f32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072x128, .f32⟩
  | 77 => ⟨S_, .i32⟩
  | 78 => ⟨S131072, .i32⟩
  | 79 => ⟨S131072, .i1⟩
  | 80 => ⟨S_, .i32⟩
  | 81 => ⟨S131072, .i32⟩
  | 82 => ⟨S131072, .i32⟩
  | 83 => ⟨S131072, .i32⟩
  | 84 => ⟨S131072x1, .i32⟩
  | 85 => ⟨S131072x128, .f32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S131072x1, .i32⟩
  | 94 => ⟨S131072x128, .f32⟩
  | 95 => ⟨S131072x128, .f32⟩
  | 96 => ⟨S_, .f32⟩
  | 97 => ⟨S131072, .f32⟩
  | 98 => ⟨S131072x1, .f32⟩
  | 99 => ⟨S131072x1, .f32⟩
  | 100 => ⟨S_, .f32⟩
  | 101 => ⟨S131072x1, .f32⟩
  | 102 => ⟨S131072x1, .f32⟩
  | 103 => ⟨S131072x128, .f32⟩
  | 104 => ⟨S131072x128, .f32⟩
  | 105 => ⟨S131072x128, .f32⟩
  | 106 => ⟨S_, .f32⟩
  | 107 => ⟨S131072, .f32⟩
  | 108 => ⟨S131072x1, .f32⟩
  | 109 => ⟨S131072x128, .f32⟩
  | 110 => ⟨S131072x128, .f32⟩
  | 111 => ⟨S131072x128, .f32⟩
  | 112 => ⟨S131072x128, .f32⟩
  | 113 => ⟨S_, .f32⟩
  | 114 => ⟨S131072, .f32⟩
  | 115 => ⟨S131072x1, .f32⟩
  | 116 => ⟨S131072x1, .f32⟩
  | 117 => ⟨S_, .f32⟩
  | 118 => ⟨S131072x1, .f32⟩
  | 119 => ⟨S131072x1, .f32⟩
  | 120 => ⟨S131072x128, .f32⟩
  | 121 => ⟨S131072x128, .f32⟩
  | 122 => ⟨S131072x128, .f32⟩
  | 123 => ⟨S_, .f32⟩
  | 124 => ⟨S131072, .f32⟩
  | 125 => ⟨S131072x1, .f32⟩
  | 126 => ⟨S131072x128, .f32⟩
  | 127 => ⟨S131072x128, .f32⟩
  | _ => ⟨S100000x128, .f32⟩

abbrev hbmTy0_1 (i : Nat) : BufTy := match i % 128 with
  | 0 => ⟨S131072x128, .f32⟩
  | 1 => ⟨S131072x128, .f32⟩
  | 2 => ⟨S_, .f32⟩
  | 3 => ⟨S131072, .f32⟩
  | 4 => ⟨S131072x1, .f32⟩
  | 5 => ⟨S131072x1, .f32⟩
  | 6 => ⟨S_, .f32⟩
  | 7 => ⟨S131072x1, .f32⟩
  | 8 => ⟨S131072x1, .f32⟩
  | 9 => ⟨S131072x128, .f32⟩
  | 10 => ⟨S131072x128, .f32⟩
  | 11 => ⟨S131072x128, .f32⟩
  | 12 => ⟨S_, .f32⟩
  | 13 => ⟨S131072, .f32⟩
  | 14 => ⟨S131072x1, .f32⟩
  | 15 => ⟨S131072x128, .f32⟩
  | 16 => ⟨S131072x128, .f32⟩
  | 17 => ⟨S131072x128, .f32⟩
  | 18 => ⟨S131072x128, .f32⟩
  | 19 => ⟨S_, .f32⟩
  | 20 => ⟨S131072, .f32⟩
  | 21 => ⟨S131072x1, .f32⟩
  | 22 => ⟨S131072x1, .f32⟩
  | 23 => ⟨S_, .f32⟩
  | 24 => ⟨S131072x1, .f32⟩
  | 25 => ⟨S131072x1, .f32⟩
  | 26 => ⟨S131072x128, .f32⟩
  | 27 => ⟨S131072x128, .f32⟩
  | 28 => ⟨S131072x128, .f32⟩
  | 29 => ⟨S131072x128, .f32⟩
  | 30 => ⟨S131072x128, .f32⟩
  | 31 => ⟨S_, .f32⟩
  | 32 => ⟨S131072, .f32⟩
  | 33 => ⟨S131072, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_v0 : Ref sig .tc := ⟨.hbm, 95, rfl⟩
abbrev main_call2_cst : Ref sig .tc := ⟨.hbm, 96, rfl⟩
abbrev main_call2_v1 : Ref sig .tc := ⟨.hbm, 97, rfl⟩
abbrev main_call2_v2 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call3_v0 : Ref sig .tc := ⟨.hbm, 112, rfl⟩
abbrev main_call3_cst : Ref sig .tc := ⟨.hbm, 113, rfl⟩
abbrev main_call3_v1 : Ref sig .tc := ⟨.hbm, 114, rfl⟩
abbrev main_call3_v2 : Ref sig .tc := ⟨.hbm, 115, rfl⟩
abbrev main_v75 : Ref sig .tc := ⟨.hbm, 116, rfl⟩
abbrev main_cst_16 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_call4_v0 : Ref sig .tc := ⟨.hbm, 129, rfl⟩
abbrev main_call4_cst : Ref sig .tc := ⟨.hbm, 130, rfl⟩
abbrev main_call4_v1 : Ref sig .tc := ⟨.hbm, 131, rfl⟩
abbrev main_call4_v2 : Ref sig .tc := ⟨.hbm, 132, rfl⟩
abbrev main_v86 : Ref sig .tc := ⟨.hbm, 133, rfl⟩
abbrev main_cst_18 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_19 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_call5_v0 : Ref sig .tc := ⟨.hbm, 146, rfl⟩
abbrev main_call5_cst : Ref sig .tc := ⟨.hbm, 147, rfl⟩
abbrev main_call5_v1 : Ref sig .tc := ⟨.hbm, 148, rfl⟩
abbrev main_call5_v2 : Ref sig .tc := ⟨.hbm, 149, rfl⟩
abbrev main_v97 : Ref sig .tc := ⟨.hbm, 150, rfl⟩
abbrev main_cst_20 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call6_v0 : Ref sig .tc := ⟨.hbm, 158, rfl⟩
abbrev main_call6_cst : Ref sig .tc := ⟨.hbm, 159, rfl⟩
abbrev main_call6_v1 : Ref sig .tc := ⟨.hbm, 160, rfl⟩
abbrev main_v104 : Ref sig .tc := ⟨.hbm, 161, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S2x50000x128 : S100000x128.ShapeCasts S2x50000x128
  reducesTo_S2x50000x128_S50000x128_d0 : S2x50000x128.ReducesTo [0] S50000x128
  h_S_ : 0 < S_.numel
  bcast_S_S50000x128 : S_.BroadcastsInDim S50000x128 (![] : Fin 0 → Fin S50000x128.rank)
  bcast_S_S131072 : S_.BroadcastsInDim S131072 (![] : Fin 0 → Fin S131072.rank)
  bcast_S131072_S131072x1_0 : S131072.BroadcastsInDim S131072x1 (![0] : Fin 1 → Fin S131072x1.rank)
  reducesTo_S131072x128_S131072_d1 : S131072x128.ReducesTo [1] S131072
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S50000x128_S131072x1_S131072x128_1_0_n_n_0_1_1128_wf : GatherDims.WF S50000x128 S131072x1 S131072x128 [1] [0] [] [0] [] 1 ![1, 128]
  gather_S500x128_S131072x1_S131072x128_1_0_n_n_0_1_1128_wf : GatherDims.WF S500x128 S131072x1 S131072x128 [1] [0] [] [0] [] 1 ![1, 128]
  gather_S365x128_S131072x1_S131072x128_1_0_n_n_0_1_1128_wf : GatherDims.WF S365x128 S131072x1 S131072x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S131072x1_S131072x128_1_0_n_n_0_1_1128 : GatherDims S50000x128 S131072x1 S131072x128 where
  offsetDims := [1]
  collapsedSliceDims := [0]
  operandBatchingDims := []
  startIndicesBatchingDims := []
  startIndexMap := [0]
  indexVectorDim := 1
  sliceSizes := ![1, 128]
  wf := gather_S50000x128_S131072x1_S131072x128_1_0_n_n_0_1_1128_wf
def gather_S500x128_S131072x1_S131072x128_1_0_n_n_0_1_1128 : GatherDims S500x128 S131072x1 S131072x128 where
  offsetDims := [1]
  collapsedSliceDims := [0]
  operandBatchingDims := []
  startIndicesBatchingDims := []
  startIndexMap := [0]
  indexVectorDim := 1
  sliceSizes := ![1, 128]
  wf := gather_S500x128_S131072x1_S131072x128_1_0_n_n_0_1_1128_wf
def gather_S365x128_S131072x1_S131072x128_1_0_n_n_0_1_1128 : GatherDims S365x128 S131072x1 S131072x128 where
  offsetDims := [1]
  collapsedSliceDims := [0]
  operandBatchingDims := []
  startIndicesBatchingDims := []
  startIndexMap := [0]
  indexVectorDim := 1
  sliceSizes := ![1, 128]
  wf := gather_S365x128_S131072x1_S131072x128_1_0_n_n_0_1_1128_wf

class Facts : Prop extends Facts₀ where

variable [Facts]
-- ==== Proof.KRun.lean ====
/-
  The whole run of the idealized kernel program, with its result named.

  The program is three kernel launches among four stretches of host operations. Its run is the composition of
  seven segments; the contents of every buffer at each boundary are a fold from the launch memory (a stretch
  of host operations applies them in order; a launch leaves its arrays at what the write-backs of its grid
  points leave and everything else untouched). The frame already says that every fair execution ends, with
  nothing faulting and the arguments as launched; read at one more buffer, the same final state gives the
  program's result as the last boundary's contents there, `W7 … main_v57`.
-/
import proofs.«134859_j57037165691116_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v57) = W7 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v57 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Whole

end
-- ==== Proof.Rows.lean ====
/-
  Rows of 128 extended reals, and the handful of operations both programs perform on them.

  Every quantity the two programs compute is local to a row: an entry of a linear layer is the dot product of
  a row of features with a column of weights, plus a bias, floored at zero; a score is built from four rows
  (head, relation, tail, and the normal of a hyperplane) by normalising, projecting off the normal and taking a
  length. Stating these once over plain functions `Fin 128 → EReal` lets each program be read against the same
  expressions, with no rearrangement of sums: nothing here needs finiteness.
-/
import Idealize.ShloMosaic.PureOps.Ideal
import Idealize.ShloMosaic.PureOps.Ideal.Laws
import Idealize.ShloMosaic.Lib.ValueIdx

noncomputable section

namespace Cert.Rows

open Idealize.ShloMosaic

/-- A row of 128 extended reals. -/
abbrev Row := Fin 128 → EReal

/-- The floor put under a length before dividing by it: the f32 nearest to 1e-12, read as the exact value of its
    bit pattern (the same pattern in both programs, so its value is never needed). -/
def floor : EReal := Ideal.ofBits .f32 0x2B8CBCCC#32

/-- The f32 zero pattern read exactly (it IS zero, but no step here needs that). -/
def zero : EReal := Ideal.ofBits .f32 0x00000000#32

/-- The dot product of two rows. -/
def dot (a b : Row) : EReal := ∑ k : Fin 128, a k * b k

/-- The Euclidean length of a row. -/
def len (a : Row) : EReal := Ideal.sqrt (dot a a)

/-- A row divided by its length, the length floored. -/
def unit (a : Row) : Row := fun k => Ideal.div (a k) (max (len a) floor)

/-- A row with its component along `n` taken off: `e - ⟨n, e⟩ n`. -/
def proj (n e : Row) : Row := fun k => e k - dot n e * n k

/-- The score of a triple on the hyperplane with raw normal `w`: the length of `ĥ + r̂ - t̂`, each of the three the
    normalised projection off the normalised normal. -/
def score (h r t w : Row) : EReal :=
  len fun k => unit (proj (unit w) h) k + unit (proj (unit w) r) k - unit (proj (unit w) t) k

/-- One entry of a linear layer with bias and rectifier: `max (⟨x, w⟩ + b) 0`. -/
def layerAt (x w : Row) (b : EReal) : EReal := max (dot x w + b) zero

end Cert.Rows

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KerPay.lean ====
/-
  The two kernel bodies, read at an index.

  A body is one pure function of the blocks it loads (its payload). The layer body multiplies a block of 4000
  rows by the whole weight matrix, adds the bias row and floors at zero: entry `(p, q)` depends on row `p` of
  the block, column `q` of the weights and entry `q` of the bias. The score body works on blocks of 4096 rows
  and never mixes rows: a sum along a row is kept as a column and spread back along the row, so every
  intermediate value at `(p, q)` is an expression in row `p` of the four loaded blocks. Both are stated against
  the row operations of `Rows`. Narrowing to bf16 before the product is the identity on exact values.
-/
import proofs.«134859_j57037165691116_1_alg».proof.Proof.Gen.KernelIdeal.Skeleton
import proofs.«134859_j57037165691116_1_alg».proof.Proof.Rows
import proofs.«134859_j57037165691116_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Rows

/-! ## Rows of a block of 4096 -/

/-- Row `p` of a block of 4096 rows. -/
abbrev brow (x : FVec Ideal S4096x128 .f32) (p : Fin 4096) : Row := fun k => x (ix2 p k)

/-- A sum along the lanes, at row `p`: the sum of that row. -/
theorem lanesum (v : FVec Ideal S4096x128 .f32) (p : Fin 4096) :
    multiReduction .add [1] S4096 v 0x00000000#32 reduces_S4096x128_S4096 (.inl rfl) rfl (ix1 p)
      = ∑ k : Fin 128, v (ix2 p k) := by
  refine (Ideal.multiReduction_add_single v 0x00000000#32 reduces_S4096x128_S4096 (.inl rfl) rfl (ix1 p)).trans ?_
  exact Finset.sum_congr rfl fun k _ => congrArg v (funext fun a => Fin.ext (by
    match a with
    | ⟨0, _⟩ => rfl
    | ⟨1, _⟩ => rfl))

/-- The sum of each row, kept as a column and spread back along the row. -/
def sumB (v : FVec Ideal S4096x128 .f32) : FVec Ideal S4096x128 .f32 :=
  broadcastTo S4096x128 (shapeCast S4096x1 (multiReduction .add [1] S4096 v 0x00000000#32 reduces_S4096x128_S4096 (.inl rfl) rfl)
    shapeCasts_S4096_S4096x1) broadcasts_S4096x1_S4096x128

/-- The floored length of each row, spread along the row. -/
def lenB (v : FVec Ideal S4096x128 .f32) : FVec Ideal S4096x128 .f32 :=
  broadcastTo S4096x128 (maximumf (sqrt (shapeCast S4096x1
    (multiReduction .add [1] S4096 (mulf v v) 0x00000000#32 reduces_S4096x128_S4096 (.inl rfl) rfl) shapeCasts_S4096_S4096x1))
    (broadcast S4096x1 (Scalar.ofBits (F := Ideal) .f32 0x2B8CBCCC#32))) broadcasts_S4096x1_S4096x128

/-- Each row divided by its floored length. -/
def unitB (v : FVec Ideal S4096x128 .f32) : FVec Ideal S4096x128 .f32 := divf v (lenB v)

/-- Each row of `e` with its component along the same row of `n` taken off. -/
def projB (n e : FVec Ideal S4096x128 .f32) : FVec Ideal S4096x128 .f32 := subf e (mulf (sumB (mulf n e)) n)

/-- The length of each row, as a column. -/
def outB (d : FVec Ideal S4096x128 .f32) : FVec Ideal S4096x1 .f32 :=
  sqrt (shapeCast S4096x1 (multiReduction .add [1] S4096 (mulf d d) 0x00000000#32 reduces_S4096x128_S4096 (.inl rfl) rfl)
    shapeCasts_S4096_S4096x1)

theorem sumB_apply (v : FVec Ideal S4096x128 .f32) (p : Fin 4096) (q : Fin 128) :
    sumB v (ix2 p q) = ∑ k : Fin 128, v (ix2 p k) :=
  (LibKeepdims.broadcastTo_a1_ab_apply _ _ p q).trans
    ((LibKeepdims.shapeCast_a_a1_apply _ _ p 0).trans (lanesum v p))

theorem lenB_apply (v : FVec Ideal S4096x128 .f32) (p : Fin 4096) (q : Fin 128) :
    lenB v (ix2 p q) = max (len (brow v p)) floor :=
  (LibKeepdims.broadcastTo_a1_ab_apply _ _ p q).trans
    (congrArg (fun z => max (Ideal.sqrt z) floor)
      ((LibKeepdims.shapeCast_a_a1_apply _ _ p 0).trans (lanesum (mulf v v) p)))

theorem unitB_apply (v : FVec Ideal S4096x128 .f32) (p : Fin 4096) (q : Fin 128) :
    unitB v (ix2 p q) = unit (brow v p) q :=
  congrArg (Ideal.div (v (ix2 p q))) (lenB_apply v p q)

theorem brow_unitB (v : FVec Ideal S4096x128 .f32) (p : Fin 4096) : brow (unitB v) p = unit (brow v p) :=
  funext fun q => unitB_apply v p q

theorem projB_apply (n e : FVec Ideal S4096x128 .f32) (p : Fin 4096) (q : Fin 128) :
    projB n e (ix2 p q) = proj (brow n p) (brow e p) q :=
  congrArg (fun z => e (ix2 p q) - z * n (ix2 p q)) (sumB_apply (mulf n e) p q)

theorem brow_projB (n e : FVec Ideal S4096x128 .f32) (p : Fin 4096) : brow (projB n e) p = proj (brow n p) (brow e p) :=
  funext fun q => projB_apply n e p q

theorem outB_apply (d : FVec Ideal S4096x128 .f32) (p : Fin 4096) : outB d (ix2 p (0 : Fin 1)) = len (brow d p) :=
  congrArg Ideal.sqrt ((LibKeepdims.shapeCast_a_a1_apply _ _ p 0).trans (lanesum (mulf d d) p))

/-! ## The score body -/

/-- The tail block passes through unchanged. -/
theorem pay2_eq (x : FVec Ideal S4096x128 .f32) : k2_pay2 (F := Ideal) x = x := by
  unfold k2_pay2; simp only [shapeCast_self]

/-- The normal block, normalised row by row. -/
theorem pay3_eq (x3 : FVec Ideal S4096x128 .f32) : k2_pay3 (F := Ideal) x3 = unitB x3 := by
  unfold k2_pay3; simp only [shapeCast_self]; rfl

/-- The relation block projected off the unit normal. -/
theorem pay5_eq (x1 x3 : FVec Ideal S4096x128 .f32) : k2_pay5 (F := Ideal) x1 x3 = projB (unitB x3) x1 := by
  unfold k2_pay5; simp only [shapeCast_self, pay3_eq]; rfl

/-- Its floored row lengths. -/
theorem pay6_eq (x1 x3 : FVec Ideal S4096x128 .f32) : k2_pay6 (F := Ideal) x1 x3 = lenB (projB (unitB x3) x1) := by
  unfold k2_pay6; simp only [pay5_eq]; rfl

/-- The head block projected off the unit normal and normalised. -/
theorem pay4_eq (x0 x3 : FVec Ideal S4096x128 .f32) : k2_pay4 (F := Ideal) x0 x3 = unitB (projB (unitB x3) x0) := by
  unfold k2_pay4; simp only [shapeCast_self, pay3_eq]; rfl

/-- The last stretch of the body: the relation normalised, the tail projected and normalised, and the row
    lengths of the combination. -/
theorem pay1_eq (t n hh rp rl : FVec Ideal S4096x128 .f32) :
    k2_pay1 (F := Ideal) t n hh rp rl = outB (subf (addf hh (divf rp rl)) (unitB (projB n t))) := by
  unfold k2_pay1; rfl

/-- The score body's stored value is the row lengths of `ĥ + r̂ - t̂`, in the block vocabulary above (the loaded blocks
    are head, relation, tail, normal, in that order). -/
theorem score_pay (x0 x1 x2 x3 : FVec Ideal S4096x128 .f32) :
    k2_pay1 (F := Ideal) (k2_pay2 x2) (k2_pay3 x3) (k2_pay4 x0 x3) (k2_pay5 x1 x3) (k2_pay6 x1 x3)
      = outB (subf (addf (unitB (projB (unitB x3) x0)) (unitB (projB (unitB x3) x1))) (unitB (projB (unitB x3) x2))) := by
  rw [pay1_eq, pay2_eq, pay3_eq, pay4_eq, pay5_eq, pay6_eq]
  rfl

/-- The score body at row `p`: the score of the four rows. -/
theorem score_block (x0 x1 x2 x3 : FVec Ideal S4096x128 .f32) (p : Fin 4096) :
    k2_pay1 (F := Ideal) (k2_pay2 x2) (k2_pay3 x3) (k2_pay4 x0 x3) (k2_pay5 x1 x3) (k2_pay6 x1 x3) (ix2 p (0 : Fin 1))
      = score (brow x0 p) (brow x1 p) (brow x2 p) (brow x3 p) := by
  rw [score_pay, outB_apply]
  refine congrArg len (funext fun k => ?_)
  show unitB (projB (unitB x3) x0) (ix2 p k) + unitB (projB (unitB x3) x1) (ix2 p k) - unitB (projB (unitB x3) x2) (ix2 p k) = _
  rw [unitB_apply, unitB_apply, unitB_apply, brow_projB, brow_projB, brow_projB, brow_unitB]

/-! ## The layer body -/

/-- The dot's dimensions: [4000, 128] by [128, 128], the left's axis 1 against the right's axis 0. -/
abbrev DK := dot_S4000x128_S128x128_S4000x128_1_0_0_1_n_n

theorem lhs0 (i : S4000x128.Idx) (c : DK.contr.Idx) : (DK.lhsIdx i c 0).val = (i 0).val := by
  unfold DotDims.lhsIdx
  rw [dif_neg (show ¬(0 : Fin S4000x128.rank) ∈ DK.lhsBatch by decide), dif_pos (show (0 : Fin S4000x128.rank) ∈ DK.lhsNonContracting by decide)]
  rfl
theorem lhs1 (i : S4000x128.Idx) (c : DK.contr.Idx) : (DK.lhsIdx i c 1).val = (c ⟨0, by decide⟩).val :=
  DK.lhsIdx_val_of_single rfl i c
theorem rhs0 (i : S4000x128.Idx) (c : DK.contr.Idx) : (DK.rhsIdx i c 0).val = (c ⟨0, by decide⟩).val :=
  DK.rhsIdx_val_of_single rfl i c
theorem rhs1 (i : S4000x128.Idx) (c : DK.contr.Idx) : (DK.rhsIdx i c 1).val = (i 1).val := by
  unfold DotDims.rhsIdx
  rw [dif_neg (show ¬(1 : Fin S128x128.rank) ∈ DK.rhsBatch by decide), dif_pos (show (1 : Fin S128x128.rank) ∈ DK.rhsNonContracting by decide)]
  rfl

/-- The matrix product into a zero accumulator, at `(p, q)`: row `p` of the left against column `q` of the right. -/
theorem matmul_block (a : FVec Ideal S4000x128 .bf16) (w : FVec Ideal S128x128 .bf16) (p : Fin 4000) (q : Fin 128) :
    matmul DK none a w (constant S4000x128 .f32 0x00000000#32) (ix2 p q) = ∑ k : Fin 128, a (ix2 p k) * w (ix2 k q) := by
  refine (Ideal.matmul_constant_zero_apply DK none a w (ix2 p q)).trans ?_
  rw [← Equiv.sum_comp (ValueIdx.contrEquiv1 DK 128 rfl rfl).symm]
  refine Finset.sum_congr rfl fun k _ => ?_
  have hk := ValueIdx.contrEquiv1_symm_val DK 128 rfl rfl k
  have el : DK.lhsIdx (ix2 p q) ((ValueIdx.contrEquiv1 DK 128 rfl rfl).symm k) = ix2 p k := funext fun ax => Fin.ext (by
    match ax with
    | ⟨0, _⟩ => exact lhs0 _ _
    | ⟨1, _⟩ => exact (lhs1 _ _).trans hk)
  have er : DK.rhsIdx (ix2 p q) ((ValueIdx.contrEquiv1 DK 128 rfl rfl).symm k) = ix2 k q := funext fun ax => Fin.ext (by
    match ax with
    | ⟨0, _⟩ => exact (rhs0 _ _).trans hk
    | ⟨1, _⟩ => exact rhs1 _ _)
  rw [el, er]

/-- The layer body's stored value: product, plus the bias row spread down the rows, floored at zero. -/
theorem layer_pay (x0 : FVec Ideal S4000x128 .f32) (x1 : FVec Ideal S128x128 .f32) (x2 : FVec Ideal S1x128 .f32) :
    k0_pay1 (F := Ideal) x0 x1 x2 = maximumf (addf (matmul DK none (truncf .bf16 x0 bitsLt_bf16_f32) (truncf .bf16 x1 bitsLt_bf16_f32)
        (constant S4000x128 .f32 0x00000000#32)) (broadcastTo S4000x128 x2 broadcasts_S1x128_S4000x128))
      (broadcast S4000x128 (Scalar.ofBits (F := Ideal) .f32 0x00000000#32)) := by
  unfold k0_pay1
  simp only [shapeCast_self]

/-- The layer body at `(p, q)`. -/
theorem layer_block (x0 : FVec Ideal S4000x128 .f32) (x1 : FVec Ideal S128x128 .f32) (x2 : FVec Ideal S1x128 .f32)
    (p : Fin 4000) (q : Fin 128) :
    k0_pay1 (F := Ideal) x0 x1 x2 (ix2 p q) = layerAt (fun k => x0 (ix2 p k)) (fun k => x1 (ix2 k q)) (x2 (ix2 (0 : Fin 1) q)) := by
  rw [layer_pay]
  exact congrArg₂ (fun s b => max (s + b) zero)
    (matmul_block (truncf .bf16 x0 bitsLt_bf16_f32) (truncf .bf16 x1 bitsLt_bf16_f32) p q)
    (broadcastTo_1b_ab_apply x2 broadcasts_S1x128_S4000x128 p q)

/-- The second launch runs the same body. -/
theorem layer_block' (x0 : FVec Ideal S4000x128 .f32) (x1 : FVec Ideal S128x128 .f32) (x2 : FVec Ideal S1x128 .f32)
    (p : Fin 4000) (q : Fin 128) :
    k1_pay1 (F := Ideal) x0 x1 x2 (ix2 p q) = layerAt (fun k => x0 (ix2 p k)) (fun k => x1 (ix2 k q)) (x2 (ix2 (0 : Fin 1) q)) :=
  layer_block x0 x1 x2 p q

end Cert.KernelIdeal.Pay

end
-- ==== Proof.KerBlocks.lean ====
/-
  From blocks to arrays: what each of the three launches leaves in its output array.

  A launch runs its body once per grid point on blocks of its arrays and writes the output block back. The two
  layer launches cut the 100000 rows into 25 blocks of 4000 (the weights and the bias are one block each, the
  same at every point); the score launch cuts the 131072 rows into 32 blocks of 4096. In both, entry `(p, ·)` of
  the output block at point `t` depends only on row `p` of the input blocks at `t`, which is row
  `4000 t + p` (or `4096 t + p`) of the arrays: so every point writes back its block of ONE whole-array function
  — `layerArr`, `scoreArr` below — and, the blocks tiling the array, the array ends holding that function.
  Stated for any contents `V` the launch may find.
-/
import proofs.«134859_j57037165691116_1_alg».proof.Proof.Gen.KernelIdeal.Frame
import proofs.«134859_j57037165691116_1_alg».proof.Proof.KerPay

set_option maxRecDepth 16384

noncomputable section

namespace Cert.KernelIdeal.Blocks

open Cert.KernelIdeal Cert.KernelIdeal.Gen Idealize.ShloMosaic Idealize.ShloMosaic.TcCoe Idealize.ShloMosaic.ValueIdx Cert.Rows
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A whole linear layer with bias and rectifier: entry `(r, q)` from row `r` of the features, column `q` of the
    (already transposed) weights and entry `q` of the bias row. -/
def layerArr (X : S100000x128.Idx → EReal) (Wt : S128x128.Idx → EReal) (b : S1x128.Idx → EReal) : S100000x128.Idx → EReal :=
  fun i => layerAt (fun k => X (ix2 (⟨(i 0).val, (i 0).isLt⟩ : Fin 100000) k))
    (fun k => Wt (ix2 k (⟨(i 1).val, (i 1).isLt⟩ : Fin 128))) (b (ix2 (0 : Fin 1) (⟨(i 1).val, (i 1).isLt⟩ : Fin 128)))

/-- The column of scores: entry `(r, 0)` from row `r` of the head, relation, tail and normal arrays. -/
def scoreArr (H R T N : S131072x128.Idx → EReal) : S131072x1.Idx → EReal :=
  fun i => score (fun k => H (ix2 (⟨(i 0).val, (i 0).isLt⟩ : Fin 131072) k)) (fun k => R (ix2 (⟨(i 0).val, (i 0).isLt⟩ : Fin 131072) k))
    (fun k => T (ix2 (⟨(i 0).val, (i 0).isLt⟩ : Fin 131072) k)) (fun k => N (ix2 (⟨(i 0).val, (i 0).isLt⟩ : Fin 131072) k))

/-! ## Launch 0: a linear layer over the first aggregate -/

/-- The printed index maps over the 25 grid points: the feature block and the output block move together down
    the rows; the weights and the bias stay; the output's row-block index is the point's number. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every row block is some point's. -/
theorem idx_onto0 : ∀ (b : Fin 25), ∃ t : Fin cfg0.N, win0_3.index t = ![b.val, 0] :=
  (by decide +kernel : ∀ (b : Fin 25), ∃ t : Fin grid0.N, win0_3.index t = ![b.val, 0])

/-- What point `t` writes back is block `t` of the whole layer applied to the arrays the launch finds. -/
theorem flushed0 (c : Dev nD) (t : Fin cfg0.N) :
    (dat0 V c).flushed 3 t = ((cfg0.win 3).blk t).view.read (Elt Ideal)
      (layerArr (V c main_v11) (V c main_v0) (V c main_v1)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S1x128) hz]
  obtain ⟨e0, e1, e2, e3, e4, e5, e6, e7⟩ := idx_facts0 t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q)
    = layerArr (V c main_v11) (V c main_v0) (V c main_v1) (((cfg0.win 3).blk t).view.emb (ix2 p q))
  refine (Pay.layer_block _ _ _ p q).trans ?_
  have hrow : ((((cfg0.win 3).blk t).view.emb (ix2 p q)) 0).val = win0_3.index t (0 : Fin 2) * 4000 + 1 * p.val := rfl
  have hcol : ((((cfg0.win 3).blk t).view.emb (ix2 p q)) 1).val = win0_3.index t (1 : Fin 2) * 128 + 1 * q.val := rfl
  unfold layerArr
  refine congr (congr (congrArg layerAt ?_) ?_) ?_
  · funext k
    show V c main_v11 (((cfg0.win 0).blk t).view.emb (ix2 p k)) = V c main_v11 _
    refine congrArg (V c main_v11) (funext fun a => Fin.ext ?_)
    match a with
    | ⟨0, _⟩ =>
      show win0_0.index t (0 : Fin 2) * 4000 + 1 * p.val = ((((cfg0.win 3).blk t).view.emb (ix2 p q)) 0).val
      rw [hrow, e0]
    | ⟨1, _⟩ =>
      show win0_0.index t (1 : Fin 2) * 128 + 1 * k.val = k.val
      rw [e1]; omega
  · funext k
    show V c main_v0 (((cfg0.win 1).blk t).view.emb (ix2 k q)) = V c main_v0 _
    refine congrArg (V c main_v0) (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * q.val = ((((cfg0.win 3).blk t).view.emb (ix2 p q)) 1).val
      rw [hcol, e3, e6]
  · show V c main_v1 (((cfg0.win 2).blk t).view.emb (ix2 (0 : Fin 1) q)) = V c main_v1 _
    refine congrArg (V c main_v1) (funext fun a => Fin.ext ?_)
    match a with
    | ⟨0, _⟩ =>
      show win0_2.index t (0 : Fin 2) * 1 + 1 * 0 = 0
      rw [e4]
    | ⟨1, _⟩ =>
      show win0_2.index t (1 : Fin 2) * 128 + 1 * q.val = ((((cfg0.win 3).blk t).view.emb (ix2 p q)) 1).val
      rw [hcol, e5, e6]

/-- An index of the output array lies in point `t`'s block iff each coordinate lies in the block's range. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v12).slice (win0_3.rect t)).set ↔ _
  rw [View.set_slice_whole, Rect.mem_set_unit]
  exact Iff.rfl

/-- The 25 blocks of 4000 rows tile the 100000 rows: row `r` is in block `r / 4000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- After the launch its output array holds the whole layer of the arrays it found. -/
theorem final0 (c : Dev nD) :
    (dat0 V c).arrAt 3 cfg0.N = layerArr (V c main_v11) (V c main_v0) (V c main_v1) :=
  (dat0 V c).arrAt_eq_of_cover 3 _ (fun t _ => flushed0 V c t) cover0

/-! ## Launch 1: a linear layer over the second aggregate -/

/-- The printed index maps over the 25 grid points: the feature block and the output block move together down
    the rows; the weights and the bias stay; the output's row-block index is the point's number. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 24 :=
  (by decide +kernel : ∀ t : Fin grid1.N, _)

/-- Every row block is some point's. -/
theorem idx_onto1 : ∀ (b : Fin 25), ∃ t : Fin cfg1.N, win1_3.index t = ![b.val, 0] :=
  (by decide +kernel : ∀ (b : Fin 25), ∃ t : Fin grid1.N, win1_3.index t = ![b.val, 0])

/-- What point `t` writes back is block `t` of the whole layer applied to the arrays the launch finds. -/
theorem flushed1 (c : Dev nD) (t : Fin cfg1.N) :
    (dat1 V c).flushed 3 t = ((cfg1.win 3).blk t).view.read (Elt Ideal)
      (layerArr (V c main_v22) (V c main_v0) (V c main_v1)) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz, View.ld_unit_zero (S := S1x128) hz]
  obtain ⟨e0, e1, e2, e3, e4, e5, e6, e7⟩ := idx_facts1 t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (ix2 p q)
    = layerArr (V c main_v22) (V c main_v0) (V c main_v1) (((cfg1.win 3).blk t).view.emb (ix2 p q))
  refine (Pay.layer_block' _ _ _ p q).trans ?_
  have hrow : ((((cfg1.win 3).blk t).view.emb (ix2 p q)) 0).val = win1_3.index t (0 : Fin 2) * 4000 + 1 * p.val := rfl
  have hcol : ((((cfg1.win 3).blk t).view.emb (ix2 p q)) 1).val = win1_3.index t (1 : Fin 2) * 128 + 1 * q.val := rfl
  unfold layerArr
  refine congr (congr (congrArg layerAt ?_) ?_) ?_
  · funext k
    show V c main_v22 (((cfg1.win 0).blk t).view.emb (ix2 p k)) = V c main_v22 _
    refine congrArg (V c main_v22) (funext fun a => Fin.ext ?_)
    match a with
    | ⟨0, _⟩ =>
      show win1_0.index t (0 : Fin 2) * 4000 + 1 * p.val = ((((cfg1.win 3).blk t).view.emb (ix2 p q)) 0).val
      rw [hrow, e0]
    | ⟨1, _⟩ =>
      show win1_0.index t (1 : Fin 2) * 128 + 1 * k.val = k.val
      rw [e1]; omega
  · funext k
    show V c main_v0 (((cfg1.win 1).blk t).view.emb (ix2 k q)) = V c main_v0 _
    refine congrArg (V c main_v0) (funext fun a => Fin.ext ?_)
    match a with
    | ⟨0, _⟩ =>
      show win1_1.index t (0 : Fin 2) * 128 + 1 * k.val = k.val
      rw [e2]; omega
    | ⟨1, _⟩ =>
      show win1_1.index t (1 : Fin 2) * 128 + 1 * q.val = ((((cfg1.win 3).blk t).view.emb (ix2 p q)) 1).val
      rw [hcol, e3, e6]
  · show V c main_v1 (((cfg1.win 2).blk t).view.emb (ix2 (0 : Fin 1) q)) = V c main_v1 _
    refine congrArg (V c main_v1) (funext fun a => Fin.ext ?_)
    match a with
    | ⟨0, _⟩ =>
      show win1_2.index t (0 : Fin 2) * 1 + 1 * 0 = 0
      rw [e4]
    | ⟨1, _⟩ =>
      show win1_2.index t (1 : Fin 2) * 128 + 1 * q.val = ((((cfg1.win 3).blk t).view.emb (ix2 p q)) 1).val
      rw [hcol, e5, e6]

/-- An index of the output array lies in point `t`'s block iff each coordinate lies in the block's range. -/
theorem mem_blk1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v23).slice (win1_3.rect t)).set ↔ _
  rw [View.set_slice_whole, Rect.mem_set_unit]
  exact Iff.rfl

/-- The 25 blocks of 4000 rows tile the 100000 rows: row `r` is in block `r / 4000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk1]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 128 ≤ (i 1).val ∧ (i 1).val < win1_3.index t (1 : Fin 2) * 128 + 128
    omega

/-- After the launch its output array holds the whole layer of the arrays it found. -/
theorem final1 (c : Dev nD) :
    (dat1 V c).arrAt 3 cfg1.N = layerArr (V c main_v22) (V c main_v0) (V c main_v1) :=
  (dat1 V c).arrAt_eq_of_cover 3 _ (fun t _ => flushed1 V c t) cover1

/-! ## Launch 2: the scores -/

/-- The printed index maps over the 32 grid points: all five blocks move together down the rows. -/
theorem idx_facts2 : ∀ t : Fin cfg2.N, win2_0.index t (0 : Fin 2) = win2_4.index t (0 : Fin 2)
    ∧ win2_1.index t (0 : Fin 2) = win2_4.index t (0 : Fin 2)
    ∧ win2_2.index t (0 : Fin 2) = win2_4.index t (0 : Fin 2)
    ∧ win2_3.index t (0 : Fin 2) = win2_4.index t (0 : Fin 2)
    ∧ win2_0.index t (1 : Fin 2) = 0 ∧ win2_1.index t (1 : Fin 2) = 0
    ∧ win2_2.index t (1 : Fin 2) = 0 ∧ win2_3.index t (1 : Fin 2) = 0
    ∧ win2_4.index t (1 : Fin 2) = 0 :=
  (by decide +kernel : ∀ t : Fin grid2.N, _)

/-- Every row block is some point's. -/
theorem idx_onto2 : ∀ (b : Fin 32), ∃ t : Fin cfg2.N, win2_4.index t = ![b.val, 0] :=
  (by decide +kernel : ∀ (b : Fin 32), ∃ t : Fin grid2.N, win2_4.index t = ![b.val, 0])

/-- What point `t` writes back is block `t` of the column of scores of the arrays the launch finds. -/
theorem flushed2 (c : Dev nD) (t : Fin cfg2.N) :
    (dat2 V c).flushed 4 t = ((cfg2.win 4).blk t).view.read (Elt Ideal)
      (scoreArr (V c main_v34) (V c main_v41) (V c main_v48) (V c main_v55)) := by
  show (cfg2.win 4).cut (grid2.coords t) ((dat2 V c).after 4 t) = _
  rw [after2_4]
  unfold out2_4
  rw [View.canon_unit_zero hz]
  simp only [View.ld_unit_zero (S := S4096x128) hz]
  obtain ⟨e0, e1, e2, e3, f0, f1, f2, f3, f4⟩ := idx_facts2 t
  funext j
  obtain ⟨p, u, rfl⟩ : ∃ (p : Fin 4096) (u : Fin 1), j = ix2 p u := ⟨j 0, j 1, eq_ix2 j⟩
  obtain rfl : u = 0 := Subsingleton.elim _ _
  show k2_pay1 (F := Ideal) (k2_pay2 (iblk2 V c 2 t)) (k2_pay3 (iblk2 V c 3 t)) (k2_pay4 (iblk2 V c 0 t) (iblk2 V c 3 t))
      (k2_pay5 (iblk2 V c 1 t) (iblk2 V c 3 t)) (k2_pay6 (iblk2 V c 1 t) (iblk2 V c 3 t)) (ix2 p (0 : Fin 1))
    = scoreArr (V c main_v34) (V c main_v41) (V c main_v48) (V c main_v55) (((cfg2.win 4).blk t).view.emb (ix2 p (0 : Fin 1)))
  refine (Pay.score_block _ _ _ _ p).trans ?_
  have hrow : ((((cfg2.win 4).blk t).view.emb (ix2 p (0 : Fin 1))) 0).val = win2_4.index t (0 : Fin 2) * 4096 + 1 * p.val := rfl
  unfold scoreArr
  refine congr (congr (congr (congrArg score ?_) ?_) ?_) ?_
  · funext k
    show V c main_v34 (((cfg2.win 0).blk t).view.emb (ix2 p k)) = V c main_v34 _
    refine congrArg (V c main_v34) (funext fun a => Fin.ext ?_)
    match a with
    | ⟨0, _⟩ =>
      show win2_0.index t (0 : Fin 2) * 4096 + 1 * p.val = ((((cfg2.win 4).blk t).view.emb (ix2 p (0 : Fin 1))) 0).val
      rw [hrow, e0]
    | ⟨1, _⟩ =>
      show win2_0.index t (1 : Fin 2) * 128 + 1 * k.val = k.val
      rw [f0]; omega
  · funext k
    show V c main_v41 (((cfg2.win 1).blk t).view.emb (ix2 p k)) = V c main_v41 _
    refine congrArg (V c main_v41) (funext fun a => Fin.ext ?_)
    match a with
    | ⟨0, _⟩ =>
      show win2_1.index t (0 : Fin 2) * 4096 + 1 * p.val = ((((cfg2.win 4).blk t).view.emb (ix2 p (0 : Fin 1))) 0).val
      rw [hrow, e1]
    | ⟨1, _⟩ =>
      show win2_1.index t (1 : Fin 2) * 128 + 1 * k.val = k.val
      rw [f1]; omega
  · funext k
    show V c main_v48 (((cfg2.win 2).blk t).view.emb (ix2 p k)) = V c main_v48 _
    refine congrArg (V c main_v48) (funext fun a => Fin.ext ?_)
    match a with
    | ⟨0, _⟩ =>
      show win2_2.index t (0 : Fin 2) * 4096 + 1 * p.val = ((((cfg2.win 4).blk t).view.emb (ix2 p (0 : Fin 1))) 0).val
      rw [hrow, e2]
    | ⟨1, _⟩ =>
      show win2_2.index t (1 : Fin 2) * 128 + 1 * k.val = k.val
      rw [f2]; omega
  · funext k
    show V c main_v55 (((cfg2.win 3).blk t).view.emb (ix2 p k)) = V c main_v55 _
    refine congrArg (V c main_v55) (funext fun a => Fin.ext ?_)
    match a with
    | ⟨0, _⟩ =>
      show win2_3.index t (0 : Fin 2) * 4096 + 1 * p.val = ((((cfg2.win 4).blk t).view.emb (ix2 p (0 : Fin 1))) 0).val
      rw [hrow, e3]
    | ⟨1, _⟩ =>
      show win2_3.index t (1 : Fin 2) * 128 + 1 * k.val = k.val
      rw [f3]; omega

/-- An index of the score column lies in point `t`'s block iff each coordinate lies in the block's range. -/
theorem mem_blk2 (t : Fin cfg2.N) (i : S131072x1.Idx) :
    i ∈ ((cfg2.win 4).blk t).view.set ↔ ∀ a : Fin 2, win2_4.index t a * S4096x1.size a ≤ (i a).val
      ∧ (i a).val < win2_4.index t a * S4096x1.size a + S4096x1.size a := by
  show i ∈ ((View.whole main_v56).slice (win2_4.rect t)).set ↔ _
  rw [View.set_slice_whole, Rect.mem_set_unit]
  exact Iff.rfl

/-- The 32 blocks of 4096 rows tile the 131072 rows: row `r` is in block `r / 4096`. -/
theorem cover2 (i : S131072x1.Idx) :
    ∃ t : Fin cfg2.N, (cfg2.win 4).flush t = true ∧ i ∈ ((cfg2.win 4).blk t).view.set := by
  have hi0 : (i 0).val < 131072 := (i 0).isLt
  have hi1 : (i 1).val < 1 := (i 1).isLt
  obtain ⟨t, ht⟩ := idx_onto2 ⟨(i 0).val / 4096, by omega⟩
  have q0 : win2_4.index t (0 : Fin 2) = (i 0).val / 4096 := congrFun ht 0
  have q1 : win2_4.index t (1 : Fin 2) = 0 := congrFun ht 1
  refine ⟨t, flush2_4 t, ?_⟩
  rw [mem_blk2]
  intro a
  match a with
  | ⟨0, _⟩ =>
    show win2_4.index t (0 : Fin 2) * 4096 ≤ (i 0).val ∧ (i 0).val < win2_4.index t (0 : Fin 2) * 4096 + 4096
    omega
  | ⟨1, _⟩ =>
    show win2_4.index t (1 : Fin 2) * 1 ≤ (i 1).val ∧ (i 1).val < win2_4.index t (1 : Fin 2) * 1 + 1
    omega

/-- After the launch its output array holds the column of scores of the arrays it found. -/
theorem final2 (c : Dev nD) :
    (dat2 V c).arrAt 4 cfg2.N = scoreArr (V c main_v34) (V c main_v41) (V c main_v48) (V c main_v55) :=
  (dat2 V c).arrAt_eq_of_cover 4 _ (fun t _ => flushed2 V c t) cover2

end Cert.KernelIdeal.Blocks

end
-- ==== Proof.RefRows.lean ====
/-
  The reference program read one row at a time.

  A linear layer of the reference: the entry at row `p`, column `q` of a layer's output is the dot product of
  row `p` of the layer's input with column `q` of the (transposed) weight matrix, plus the `q`-th bias, floored at
  zero. The score of the reference: the entry at triple `p` is the length of `ĥ + r̂ - t̂`, where the raw normal row is
  divided by its floored length, each of the head, relation and tail rows has its component along that unit normal
  taken off and is then divided by its own floored length. Every statement reads one entry of a stage of the program
  and expresses it by the row operations `dot`, `len`, `unit`, `proj`, `score`, `layerAt` applied to rows of earlier
  stages; sums are never rearranged, and the only constant evaluated is the zero that starts each sum.
-/
import proofs.«134859_j57037165691116_1_alg».proof.Proof.ReadP
import proofs.«134859_j57037165691116_1_alg».proof.Proof.Rows
import Idealize.ShloMosaic.Lib.ValueIdx
import Idealize.ShloMosaic.PureOps.Ideal.Laws
import Idealize.ShloMosaic.Lib.Pipeline.Value

noncomputable section

namespace Cert.ReferenceIdeal.RefRows

open Cert.ReferenceIdeal Cert.ReferenceIdeal.Gen Cert.ReferenceIdeal.ReadP Cert
open Idealize.ShloMosaic Idealize.ShloMosaic.TcCoe Idealize.SL.Sem Idealize.ShloMosaic.StableHlo
open Idealize.ShloMosaic.ValueIdx

variable (x0 : (⟨S100000x128, .f32⟩ : BufTy).Contents (Elt Ideal))
  (x1 : (⟨S128x128, .f32⟩ : BufTy).Contents (Elt Ideal))
  (x2 : (⟨S128, .f32⟩ : BufTy).Contents (Elt Ideal))
  (x3 : (⟨S500x128, .f32⟩ : BufTy).Contents (Elt Ideal))
  (x4 : (⟨S365x128, .f32⟩ : BufTy).Contents (Elt Ideal))
  (x5 x6 : (⟨S1600000, .i32⟩ : BufTy).Contents (Elt Ideal))
  (x7 x8 x9 x10 : (⟨S131072, .i32⟩ : BufTy).Contents (Elt Ideal))

/-! ## The two linear layers -/

/-- The left operand of the first layer's product is read at row `p`, position `k`. -/
theorem lidx_v11 (p : Fin 100000) (q k : Fin 128) : lidx_main_v11 (ix2 p q) k = ix2 p k :=
  funext fun a => match a with | ⟨0, _⟩ => rfl | ⟨1, _⟩ => rfl

/-- The right operand of the first layer's product is read at position `k`, column `q`. -/
theorem ridx_v11 (p : Fin 100000) (q k : Fin 128) : ridx_main_v11 (ix2 p q) k = ix2 k q :=
  funext fun a => match a with | ⟨0, _⟩ => rfl | ⟨1, _⟩ => rfl

/-- The bias, spread over the rows, is read at the column. -/
theorem bias_v13 (p : Fin 100000) (q : Fin 128) : idx_main_v12 (idx_main_v13 (ix2 p q)) = ix1 q :=
  funext fun a => match a with | ⟨0, _⟩ => rfl

/-- An entry of the first layer: `max (⟨row p of the aggregated input, column q of the weights⟩ + bias q) 0`. -/
theorem layer1_apply (p : Fin 100000) (q : Fin 128) :
    val_main_v15 (F := Ideal) x0 x1 x2 x5 x6 (ix2 p q)
      = Rows.layerAt (fun k => val_main_v9 (F := Ideal) x0 x5 x6 (ix2 p k))
          (fun k => val_main_v10 (F := Ideal) x1 (ix2 k q)) (x2 (ix1 q)) := by
  rw [val_main_v15_apply, val_main_v14_apply, val_main_v11_apply, val_main_v13_apply, val_main_v12_apply,
    val_main_call0_v0_apply, val_main_call0_cst_apply, bias_v13]
  simp only [lidx_v11, ridx_v11]
  rfl

/-- The left operand of the second layer's product is read at row `p`, position `k`. -/
theorem lidx_v27 (p : Fin 100000) (q k : Fin 128) : lidx_main_v27 (ix2 p q) k = ix2 p k :=
  funext fun a => match a with | ⟨0, _⟩ => rfl | ⟨1, _⟩ => rfl

/-- The right operand of the second layer's product is read at position `k`, column `q`. -/
theorem ridx_v27 (p : Fin 100000) (q k : Fin 128) : ridx_main_v27 (ix2 p q) k = ix2 k q :=
  funext fun a => match a with | ⟨0, _⟩ => rfl | ⟨1, _⟩ => rfl

/-- The bias of the second layer, spread over the rows, is read at the column. -/
theorem bias_v29 (p : Fin 100000) (q : Fin 128) : idx_main_v28 (idx_main_v29 (ix2 p q)) = ix1 q :=
  funext fun a => match a with | ⟨0, _⟩ => rfl

/-- An entry of the second layer: `max (⟨row p of the aggregated first layer, column q of the weights⟩ + bias q) 0`. -/
theorem layer2_apply (p : Fin 100000) (q : Fin 128) :
    val_main_v31 (F := Ideal) x0 x1 x2 x5 x6 (ix2 p q)
      = Rows.layerAt (fun k => val_main_v25 (F := Ideal) x0 x1 x2 x5 x6 (ix2 p k))
          (fun k => val_main_v26 (F := Ideal) x1 (ix2 k q)) (x2 (ix1 q)) := by
  rw [val_main_v31_apply, val_main_v30_apply, val_main_v27_apply, val_main_v29_apply, val_main_v28_apply,
    val_main_call1_v0_apply, val_main_call1_cst_apply, bias_v29]
  simp only [lidx_v27, ridx_v27]
  rfl

/-! ## The score

  Throughout, `p` is a triple and `q`, `k` are positions in a row of 128. Each sum of the program starts from the
  zero constant, which is evaluated and dropped; the floor under a length is left as its pattern. -/

/-- The sum of squares of the normal starts from zero. -/
theorem init_len_w : val_main_call2_cst (F := Ideal) (Shape.Idx.first h_S_) = (0 : EReal) := Ideal.ofBits_zero_f32

/-- The squared length of the normal, kept as a column and spread over the row, sums over row `p`. -/
theorem row_len_w (p : Fin 131072) (q k : Fin 128) :
    idx_main_call2_v1 (idx_main_call2_v2 (idx_main_v67 (ix2 p q))) k = ix2 p k :=
  funext fun a => match a with | ⟨0, _⟩ => rfl | ⟨1, _⟩ => rfl

/-- The unit normal: the normal row divided by its floored length. -/
theorem unit_w (p : Fin 131072) (q : Fin 128) :
    val_main_v68 (F := Ideal) x4 x10 (ix2 p q)
      = Rows.unit (fun k => val_main_v63 (F := Ideal) x4 x10 (ix2 p k)) q := by
  rw [val_main_v68_apply, val_main_v67_apply, val_main_v66_apply, val_main_v64_apply, val_main_call2_v2_apply,
    val_main_call2_v1_apply, init_len_w, zero_add, val_main_v65_apply, val_main_cst_14_apply]
  simp only [val_main_call2_v0_apply, row_len_w]
  rfl

/-! ### The head row -/

/-- The sum giving the head row's component along the normal starts from zero. -/
theorem init_dot_h : val_main_cst_15 (F := Ideal) (Shape.Idx.first h_S_) = (0 : EReal) := Ideal.ofBits_zero_f32

/-- The sum of squares of the projected head row starts from zero. -/
theorem init_len_h : val_main_call3_cst (F := Ideal) (Shape.Idx.first h_S_) = (0 : EReal) := Ideal.ofBits_zero_f32

/-- The component along the normal, kept as a column and spread over the row, sums over row `p`. -/
theorem row_dot_h (p : Fin 131072) (q k : Fin 128) :
    idx_main_v70 (idx_main_v71 (idx_main_v72 (ix2 p q))) k = ix2 p k :=
  funext fun a => match a with | ⟨0, _⟩ => rfl | ⟨1, _⟩ => rfl

/-- The squared length of the projected head row, kept as a column and spread over the row, sums over row `p`. -/
theorem row_len_h (p : Fin 131072) (q k : Fin 128) :
    idx_main_call3_v1 (idx_main_call3_v2 (idx_main_v78 (ix2 p q))) k = ix2 p k :=
  funext fun a => match a with | ⟨0, _⟩ => rfl | ⟨1, _⟩ => rfl

/-- The head row with its component along the unit normal taken off. -/
theorem proj_h (p : Fin 131072) (q : Fin 128) :
    val_main_v74 (F := Ideal) x0 x1 x2 x4 x5 x6 x7 x10 (ix2 p q)
      = Rows.proj (Rows.unit fun k => val_main_v63 (F := Ideal) x4 x10 (ix2 p k))
          (fun k => val_main_v42 (F := Ideal) x0 x1 x2 x5 x6 x7 (ix2 p k)) q := by
  rw [val_main_v74_apply, val_main_v73_apply, val_main_v72_apply, val_main_v71_apply,
    val_main_v70_apply, init_dot_h, zero_add, unit_w]
  simp only [val_main_v69_apply, row_dot_h, unit_w]
  rfl

/-- The projected head row divided by its floored length. -/
theorem unit_h (p : Fin 131072) (q : Fin 128) :
    val_main_v79 (F := Ideal) x0 x1 x2 x4 x5 x6 x7 x10 (ix2 p q)
      = Rows.unit (Rows.proj (Rows.unit fun k => val_main_v63 (F := Ideal) x4 x10 (ix2 p k))
          (fun k => val_main_v42 (F := Ideal) x0 x1 x2 x5 x6 x7 (ix2 p k))) q := by
  rw [val_main_v79_apply, val_main_v78_apply, val_main_v77_apply, val_main_v75_apply,
    val_main_call3_v2_apply, val_main_call3_v1_apply, init_len_h, zero_add, val_main_v76_apply,
    val_main_cst_16_apply, proj_h]
  simp only [val_main_call3_v0_apply, row_len_h, proj_h]
  rfl

/-! ### The relation row -/

/-- The sum giving the relation row's component along the normal starts from zero. -/
theorem init_dot_r : val_main_cst_17 (F := Ideal) (Shape.Idx.first h_S_) = (0 : EReal) := Ideal.ofBits_zero_f32

/-- The sum of squares of the projected relation row starts from zero. -/
theorem init_len_r : val_main_call4_cst (F := Ideal) (Shape.Idx.first h_S_) = (0 : EReal) := Ideal.ofBits_zero_f32

/-- The component along the normal, kept as a column and spread over the row, sums over row `p`. -/
theorem row_dot_r (p : Fin 131072) (q k : Fin 128) :
    idx_main_v81 (idx_main_v82 (idx_main_v83 (ix2 p q))) k = ix2 p k :=
  funext fun a => match a with | ⟨0, _⟩ => rfl | ⟨1, _⟩ => rfl

/-- The squared length of the projected relation row, kept as a column and spread over the row, sums over row `p`. -/
theorem row_len_r (p : Fin 131072) (q k : Fin 128) :
    idx_main_call4_v1 (idx_main_call4_v2 (idx_main_v89 (ix2 p q))) k = ix2 p k :=
  funext fun a => match a with | ⟨0, _⟩ => rfl | ⟨1, _⟩ => rfl

/-- The relation row with its component along the unit normal taken off. -/
theorem proj_r (p : Fin 131072) (q : Fin 128) :
    val_main_v85 (F := Ideal) x3 x4 x8 x10 (ix2 p q)
      = Rows.proj (Rows.unit fun k => val_main_v63 (F := Ideal) x4 x10 (ix2 p k))
          (fun k => val_main_v49 (F := Ideal) x3 x8 (ix2 p k)) q := by
  rw [val_main_v85_apply, val_main_v84_apply, val_main_v83_apply, val_main_v82_apply,
    val_main_v81_apply, init_dot_r, zero_add, unit_w]
  simp only [val_main_v80_apply, row_dot_r, unit_w]
  rfl

/-- The projected relation row divided by its floored length. -/
theorem unit_r (p : Fin 131072) (q : Fin 128) :
    val_main_v90 (F := Ideal) x3 x4 x8 x10 (ix2 p q)
      = Rows.unit (Rows.proj (Rows.unit fun k => val_main_v63 (F := Ideal) x4 x10 (ix2 p k))
          (fun k => val_main_v49 (F := Ideal) x3 x8 (ix2 p k))) q := by
  rw [val_main_v90_apply, val_main_v89_apply, val_main_v88_apply, val_main_v86_apply,
    val_main_call4_v2_apply, val_main_call4_v1_apply, init_len_r, zero_add, val_main_v87_apply,
    val_main_cst_18_apply, proj_r]
  simp only [val_main_call4_v0_apply, row_len_r, proj_r]
  rfl

/-! ### The tail row -/

/-- The sum giving the tail row's component along the normal starts from zero. -/
theorem init_dot_t : val_main_cst_19 (F := Ideal) (Shape.Idx.first h_S_) = (0 : EReal) := Ideal.ofBits_zero_f32

/-- The sum of squares of the projected tail row starts from zero. -/
theorem init_len_t : val_main_call5_cst (F := Ideal) (Shape.Idx.first h_S_) = (0 : EReal) := Ideal.ofBits_zero_f32

/-- The component along the normal, kept as a column and spread over the row, sums over row `p`. -/
theorem row_dot_t (p : Fin 131072) (q k : Fin 128) :
    idx_main_v92 (idx_main_v93 (idx_main_v94 (ix2 p q))) k = ix2 p k :=
  funext fun a => match a with | ⟨0, _⟩ => rfl | ⟨1, _⟩ => rfl

/-- The squared length of the projected tail row, kept as a column and spread over the row, sums over row `p`. -/
theorem row_len_t (p : Fin 131072) (q k : Fin 128) :
    idx_main_call5_v1 (idx_main_call5_v2 (idx_main_v100 (ix2 p q))) k = ix2 p k :=
  funext fun a => match a with | ⟨0, _⟩ => rfl | ⟨1, _⟩ => rfl

/-- The tail row with its component along the unit normal taken off. -/
theorem proj_t (p : Fin 131072) (q : Fin 128) :
    val_main_v96 (F := Ideal) x0 x1 x2 x4 x5 x6 x9 x10 (ix2 p q)
      = Rows.proj (Rows.unit fun k => val_main_v63 (F := Ideal) x4 x10 (ix2 p k))
          (fun k => val_main_v56 (F := Ideal) x0 x1 x2 x5 x6 x9 (ix2 p k)) q := by
  rw [val_main_v96_apply, val_main_v95_apply, val_main_v94_apply, val_main_v93_apply,
    val_main_v92_apply, init_dot_t, zero_add, unit_w]
  simp only [val_main_v91_apply, row_dot_t, unit_w]
  rfl

/-- The projected tail row divided by its floored length. -/
theorem unit_t (p : Fin 131072) (q : Fin 128) :
    val_main_v101 (F := Ideal) x0 x1 x2 x4 x5 x6 x9 x10 (ix2 p q)
      = Rows.unit (Rows.proj (Rows.unit fun k => val_main_v63 (F := Ideal) x4 x10 (ix2 p k))
          (fun k => val_main_v56 (F := Ideal) x0 x1 x2 x5 x6 x9 (ix2 p k))) q := by
  rw [val_main_v101_apply, val_main_v100_apply, val_main_v99_apply, val_main_v97_apply,
    val_main_call5_v2_apply, val_main_call5_v1_apply, init_len_t, zero_add, val_main_v98_apply,
    val_main_cst_20_apply, proj_t]
  simp only [val_main_call5_v0_apply, row_len_t, proj_t]
  rfl

/-! ### The score itself -/

/-- The sum of squares of `ĥ + r̂ - t̂` starts from zero. -/
theorem init_score : val_main_call6_cst (F := Ideal) (Shape.Idx.first h_S_) = (0 : EReal) := Ideal.ofBits_zero_f32

/-- The sum of squares of `ĥ + r̂ - t̂` for triple `p` runs over row `p`. -/
theorem row_score (p : Fin 131072) (k : Fin 128) : idx_main_call6_v1 (ix1 p) k = ix2 p k :=
  funext fun a => match a with | ⟨0, _⟩ => rfl | ⟨1, _⟩ => rfl

/-- The score of triple `p`: the length of `ĥ + r̂ - t̂`, each of the three the normalised projection of its row off
    the unit normal. -/
theorem score_apply (p : Fin 131072) :
    val_main_v104 (F := Ideal) x0 x1 x2 x3 x4 x5 x6 x7 x8 x9 x10 (ix1 p)
      = Rows.score (fun k => val_main_v42 (F := Ideal) x0 x1 x2 x5 x6 x7 (ix2 p k))
          (fun k => val_main_v49 (F := Ideal) x3 x8 (ix2 p k))
          (fun k => val_main_v56 (F := Ideal) x0 x1 x2 x5 x6 x9 (ix2 p k))
          (fun k => val_main_v63 (F := Ideal) x4 x10 (ix2 p k)) := by
  rw [val_main_v104_apply, val_main_call6_v1_apply, init_score, zero_add]
  simp only [val_main_call6_v0_apply, val_main_v103_apply, val_main_v102_apply, row_score, unit_h, unit_r, unit_t]
  rfl

end Cert.ReferenceIdeal.RefRows

end
-- ==== Proof.LibColumn.lean ====
/-
  One layout operation read at an index written by coordinates: a column `[a, 1]` cast to the vector `[a]`
  (what taking the one column of a one-column matrix prints as). A general lemma: any element type, any
  extent.
-/
import Idealize.ShloMosaic.Lib.Pipeline.Value
import Idealize.ShloMosaic.Lib.ValueIdx

namespace Cert.LibColumn

open Idealize.ShloMosaic Idealize.ShloMosaic.ValueIdx

variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn
-- ==== Proof.KerFold.lean ====
/-
  The kernel program's result, walked back through its seven segments to the argument arrays.

  At each boundary the contents of the buffers the next segment reads are identified with the stages of the
  reference program (the value each of its operations writes, as a function of the argument arrays):
  the first stretch of host operations builds the transposed weights, the bias row and the first aggregate
  exactly as the reference does; the first launch leaves the whole layer of that aggregate, which is the
  reference's first layer; the second stretch gathers and scatter-adds it again; the second launch leaves the
  second layer; the third stretch averages the two snapshots and gathers the head, relation, tail and normal
  rows; the third launch leaves the column of scores; the last operation drops the unit axis. The host
  operations shared by the two programs are never opened: they are the same operations applied to equal
  arrays.
-/
import proofs.«134859_j57037165691116_1_alg».proof.Proof.Gen.KernelIdeal.Frame
import proofs.«134859_j57037165691116_1_alg».proof.Proof.KerBlocks
import proofs.«134859_j57037165691116_1_alg».proof.Proof.ReadP
import proofs.«134859_j57037165691116_1_alg».proof.Proof.RefRows
import proofs.«134859_j57037165691116_1_alg».proof.Proof.LibColumn
import Idealize.ShloMosaic.Lib.ValueLayout
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.ValueIdx Cert.Rows
open Idealize.ShloMosaic.StableHlo
open Cert.ReferenceIdeal.ReadP Cert.ReferenceIdeal.RefRows Cert.KernelIdeal.Blocks

variable (m : (ℓ : Loc nD τ sig) → Buf (Elt Ideal) ℓ) (ρ : Dev nD → PrngReg) (c : Dev nD)

/-! ## The argument arrays as launched -/

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)
abbrev X9 := m ((c : Thread nD τ).loc main_arg9)
abbrev X10 := m ((c : Thread nD τ).loc main_arg10)

/-! ## No segment before its use writes an argument -/

theorem W2_arg5 : W2 m ρ c (Proc.devRef .tc main_arg5) = X5 m c := by
  rw [W2_of_ne m ρ c main_arg5 (by decide)]
  show StableHlo.after hostOps0 (W0 m ρ c) (Proc.devRef .tc main_arg5) = _
  after_results
theorem W2_arg6 : W2 m ρ c (Proc.devRef .tc main_arg6) = X6 m c := by
  rw [W2_of_ne m ρ c main_arg6 (by decide)]
  show StableHlo.after hostOps0 (W0 m ρ c) (Proc.devRef .tc main_arg6) = _
  after_results
theorem W4_arg3 : W4 m ρ c (Proc.devRef .tc main_arg3) = X3 m c := by
  rw [W4_of_ne m ρ c main_arg3 (by decide)]
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results
theorem W4_arg4 : W4 m ρ c (Proc.devRef .tc main_arg4) = X4 m c := by
  rw [W4_of_ne m ρ c main_arg4 (by decide)]
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results
theorem W4_arg7 : W4 m ρ c (Proc.devRef .tc main_arg7) = X7 m c := by
  rw [W4_of_ne m ρ c main_arg7 (by decide)]
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
theorem W4_arg8 : W4 m ρ c (Proc.devRef .tc main_arg8) = X8 m c := by
  rw [W4_of_ne m ρ c main_arg8 (by decide)]
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results
theorem W4_arg9 : W4 m ρ c (Proc.devRef .tc main_arg9) = X9 m c := by
  rw [W4_of_ne m ρ c main_arg9 (by decide)]
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results
theorem W4_arg10 : W4 m ρ c (Proc.devRef .tc main_arg10) = X10 m c := by
  rw [W4_of_ne m ρ c main_arg10 (by decide)]
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results

/-! ## The first stretch: transposed weights, bias row, first aggregate -/

theorem v11_eq : W1 m ρ c (Proc.devRef .tc main_v11) = val_main_v9 (F := Ideal) (X0 m c) (X5 m c) (X6 m c) := by
  show StableHlo.after hostOps0 (W0 m ρ c) (Proc.devRef .tc main_v11) = _
  after_results
  rfl

theorem v0_eq : W1 m ρ c (Proc.devRef .tc main_v0) = val_main_v10 (F := Ideal) (X1 m c) := by
  show StableHlo.after hostOps0 (W0 m ρ c) (Proc.devRef .tc main_v0) = _
  after_results
  rfl

theorem v1_eq : W1 m ρ c (Proc.devRef .tc main_v1) = shapeCast S1x128 (X2 m c) shapeCasts_S128_S1x128 := by
  show StableHlo.after hostOps0 (W0 m ρ c) (Proc.devRef .tc main_v1) = _
  after_results
  rfl

/-! ## The first launch: the first layer -/

/-- The launch leaves the first layer of the reference. -/
theorem v12_eq : W2 m ρ c (Proc.devRef .tc main_v12) = val_main_v15 (F := Ideal) (X0 m c) (X1 m c) (X2 m c) (X5 m c) (X6 m c) := by
  refine (W2_arr m ρ c 3).trans ((final0 (V1 m ρ) c).trans ?_)
  funext i
  obtain ⟨p, q, rfl⟩ : ∃ (p : Fin 100000) (q : Fin 128), i = ix2 p q := ⟨i 0, i 1, eq_ix2 i⟩
  refine Eq.trans ?_ (layer1_apply (X0 m c) (X1 m c) (X2 m c) (X5 m c) (X6 m c) p q).symm
  unfold layerArr
  refine congr (congr (congrArg layerAt ?_) ?_) ?_
  · funext k; exact congrFun (v11_eq m ρ c) (ix2 p k)
  · funext k; exact congrFun (v0_eq m ρ c) (ix2 k q)
  · exact (congrFun (v1_eq m ρ c) (ix2 (0 : Fin 1) q)).trans (shapeCast_a_1a_apply (X2 m c) shapeCasts_S128_S1x128 0 q)

/-- The weights and the bias row pass through the launch (it only reads them). -/
theorem W2_v0 : W2 m ρ c (Proc.devRef .tc main_v0) = val_main_v10 (F := Ideal) (X1 m c) :=
  (W2_arr m ρ c 1).trans (((dat0 (V1 m ρ) c).arrAt_in 1 rfl cfg0.N).trans ((A_eq0 (V1 m ρ) c 1).trans (v0_eq m ρ c)))

theorem W2_v1 : W2 m ρ c (Proc.devRef .tc main_v1) = shapeCast S1x128 (X2 m c) shapeCasts_S128_S1x128 :=
  (W2_arr m ρ c 2).trans (((dat0 (V1 m ρ) c).arrAt_in 2 rfl cfg0.N).trans ((A_eq0 (V1 m ρ) c 2).trans (v1_eq m ρ c)))

/-! ## The second stretch: the second aggregate -/

theorem v22_eq : W3 m ρ c (Proc.devRef .tc main_v22) = val_main_v25 (F := Ideal) (X0 m c) (X1 m c) (X2 m c) (X5 m c) (X6 m c) := by
  show StableHlo.after hostOps1 (W2 m ρ c) (Proc.devRef .tc main_v22) = _
  after_results
  rw [v12_eq m ρ c, W2_arg5 m ρ c, W2_arg6 m ρ c]
  rfl

theorem W3_v0 : W3 m ρ c (Proc.devRef .tc main_v0) = val_main_v26 (F := Ideal) (X1 m c) := by
  show StableHlo.after hostOps1 (W2 m ρ c) (Proc.devRef .tc main_v0) = _
  after_results
  exact W2_v0 m ρ c

theorem W3_v1 : W3 m ρ c (Proc.devRef .tc main_v1) = shapeCast S1x128 (X2 m c) shapeCasts_S128_S1x128 := by
  show StableHlo.after hostOps1 (W2 m ρ c) (Proc.devRef .tc main_v1) = _
  after_results
  exact W2_v1 m ρ c

/-! ## The second launch: the second layer -/

theorem v23_eq : W4 m ρ c (Proc.devRef .tc main_v23) = val_main_v31 (F := Ideal) (X0 m c) (X1 m c) (X2 m c) (X5 m c) (X6 m c) := by
  refine (W4_arr m ρ c 3).trans ((final1 (V3 m ρ) c).trans ?_)
  funext i
  obtain ⟨p, q, rfl⟩ : ∃ (p : Fin 100000) (q : Fin 128), i = ix2 p q := ⟨i 0, i 1, eq_ix2 i⟩
  refine Eq.trans ?_ (layer2_apply (X0 m c) (X1 m c) (X2 m c) (X5 m c) (X6 m c) p q).symm
  unfold layerArr
  refine congr (congr (congrArg layerAt ?_) ?_) ?_
  · funext k; exact congrFun (v22_eq m ρ c) (ix2 p k)
  · funext k; exact congrFun (W3_v0 m ρ c) (ix2 k q)
  · exact (congrFun (W3_v1 m ρ c) (ix2 (0 : Fin 1) q)).trans (shapeCast_a_1a_apply (X2 m c) shapeCasts_S128_S1x128 0 q)

/-! ## The third stretch: the mean over the two snapshots and the four gathers -/

theorem v34_eq : W5 m ρ c (Proc.devRef .tc main_v34) = val_main_v42 (F := Ideal) (X0 m c) (X1 m c) (X2 m c) (X5 m c) (X6 m c) (X7 m c) := by
  show StableHlo.after hostOps2 (W4 m ρ c) (Proc.devRef .tc main_v34) = _
  after_results_simp
  rw [v23_eq m ρ c, W4_arg7 m ρ c]
  rfl

theorem v41_eq : W5 m ρ c (Proc.devRef .tc main_v41) = val_main_v49 (F := Ideal) (X3 m c) (X8 m c) := by
  show StableHlo.after hostOps2 (W4 m ρ c) (Proc.devRef .tc main_v41) = _
  after_results_simp
  rw [W4_arg3 m ρ c, W4_arg8 m ρ c]
  rfl

theorem v48_eq : W5 m ρ c (Proc.devRef .tc main_v48) = val_main_v56 (F := Ideal) (X0 m c) (X1 m c) (X2 m c) (X5 m c) (X6 m c) (X9 m c) := by
  show StableHlo.after hostOps2 (W4 m ρ c) (Proc.devRef .tc main_v48) = _
  after_results_simp
  rw [v23_eq m ρ c, W4_arg9 m ρ c]
  rfl

theorem v55_eq : W5 m ρ c (Proc.devRef .tc main_v55) = val_main_v63 (F := Ideal) (X4 m c) (X10 m c) := by
  show StableHlo.after hostOps2 (W4 m ρ c) (Proc.devRef .tc main_v55) = _
  after_results_simp
  rw [W4_arg4 m ρ c, W4_arg10 m ρ c]
  rfl

/-! ## The third launch and the last operation: the scores -/

/-- The program's result is the reference's. -/
theorem result_eq : W7 m ρ c (Proc.devRef .tc main_v57)
    = val_main_v104 (F := Ideal) (X0 m c) (X1 m c) (X2 m c) (X3 m c) (X4 m c) (X5 m c) (X6 m c) (X7 m c) (X8 m c) (X9 m c) (X10 m c) := by
  have h57 : W7 m ρ c (Proc.devRef .tc main_v57)
      = shapeCast S131072 (W6 m ρ c (Proc.devRef .tc main_v56)) shapeCasts_S131072x1_S131072 := by
    show StableHlo.after hostOps3 (W6 m ρ c) (Proc.devRef .tc main_v57) = _
    after_results
    rfl
  rw [h57, (W6_arr m ρ c 4).trans (final2 (V5 m ρ) c)]
  funext i
  obtain ⟨p, rfl⟩ : ∃ (p : Fin 131072), i = ix1 p := ⟨i 0, eq_ix1 i⟩
  refine (LibColumn.shapeCast_a1_a_apply _ shapeCasts_S131072x1_S131072 p).trans ?_
  refine Eq.trans ?_ (score_apply (X0 m c) (X1 m c) (X2 m c) (X3 m c) (X4 m c) (X5 m c) (X6 m c) (X7 m c) (X8 m c) (X9 m c) (X10 m c) p).symm
  unfold scoreArr
  refine congr (congr (congr (congrArg score ?_) ?_) ?_) ?_
  · funext k; exact congrFun (v34_eq m ρ c) (ix2 p k)
  · funext k; exact congrFun (v41_eq m ρ c) (ix2 p k)
  · funext k; exact congrFun (v48_eq m ρ c) (ix2 p k)
  · funext k; exact congrFun (v55_eq m ρ c) (ix2 p k)

end Cert.KernelIdeal.Fold

end
-- ==== Proof.RefRun.lean ====
/- The run of the reference program, read in stages.

   The reference's @main is a straight line of 151 host operations (the operations of each outlined function
   standing at its call). Such a line terminates under every weakly fair schedule, and each buffer ends at the
   fold of the operations' results over the launch contents. This module cuts the line into eleven consecutive
   pieces and follows the fold piece by piece: after each piece, every buffer a later piece still reads holds
   the value the corresponding stage function `ReadP.val_<buffer>` assigns to the eleven argument arrays, and a
   buffer that no operation of a piece writes keeps its contents across that piece. Chaining the pieces gives:
   the result buffer ends at `ReadP.val_main_v104` of the arguments' launch contents, and every argument buffer
   ends as it started. -/
import proofs.«134859_j57037165691116_1_alg».proof.Proof.ReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The arrays of a shape and element type. -/
local notation "Arr[" s ", " e "]" => BufTy.Contents (Elt F) (BufTy.mk s e)

/-- The fold over a concatenation is the fold over the second piece from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A listed buffer, as a one-element set of device buffers, lies in the listed buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A buffer outside the list of buffers a piece writes holds after the piece what it held before. -/
theorem keep {W : List (Ref sig .tc)} {l : List (HloOp τ sig (Elt F))}
    (hW : l.Forall fun op => op.writes ⊆ (W.map (Proc.devRef (τ := τ) .tc)).toFinset)
    (V : Valuation τ sig (Elt F)) {r : Ref sig .tc} (hr : r ∉ W)
    {x : (Proc.devRef (τ := τ) .tc r).ty.Contents (Elt F)} (h : V (Proc.devRef .tc r) = x) :
    after l V (Proc.devRef .tc r) = x :=
  (after_of_writes_sub l V hW hr).trans h

/-- Piece 1 of the line: operations 0–20. -/
abbrev s1 : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg5 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg5 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg5 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    unary main_arg6 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg1 main_v10 ((transpose S128x128 [1, 0] · transposes_S128x128_S128x128_1_0) : (⟨S128x128, .f32⟩ : BufTy).Contents (Elt F) → (⟨S128x128, .f32⟩ : BufTy).Contents (Elt F)),
    binary main_v9 main_v10 main_v11 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v12 (broadcastInDim S1x128 ![1] bcast_S128_S1x128_1 : (⟨S128, .f32⟩ : BufTy).Contents (Elt F) → (⟨S1x128, .f32⟩ : BufTy).Contents (Elt F)),
    unary main_v12 main_v13 (broadcastInDim S100000x128 ![0, 1] bcast_S1x128_S100000x128_0_1 : (⟨S1x128, .f32⟩ : BufTy).Contents (Elt F) → (⟨S100000x128, .f32⟩ : BufTy).Contents (Elt F)),
    binary main_v11 main_v13 main_v14 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v14) (TRef.of (T := ⟨S100000x128, .f32⟩) main_call0_v0) (TRef.of (T := ⟨S100000x128, .f32⟩) main_v15) maximumf ]

/-- Piece 2 of the line: operations 21–41. -/
abbrev s2 : List (HloOp τ sig (Elt F)) :=
  [ nullary main_c_1 (constantI S_ 32 0#32),
    unary main_c_1 main_v16 (broadcastInDim S1600000 ![] bcast_S_S1600000 : (⟨S_, .i32⟩ : BufTy).Contents (Elt F) → (⟨S1600000, .i32⟩ : BufTy).Contents (Elt F)),
    binary main_arg5 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v18 (broadcastInDim S1600000 ![] bcast_S_S1600000 : (⟨S_, .i32⟩ : BufTy).Contents (Elt F) → (⟨S1600000, .i32⟩ : BufTy).Contents (Elt F)),
    binary main_arg5 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_arg5 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_3 (constant S_ .f32 0x00000000#32),
    unary main_cst_3 main_v23 (broadcastInDim S100000x128 ![] bcast_S_S100000x128 : (⟨S_, .f32⟩ : BufTy).Contents (Elt F) → (⟨S100000x128, .f32⟩ : BufTy).Contents (Elt F)),
    unary main_arg6 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg1 main_v26 ((transpose S128x128 [1, 0] · transposes_S128x128_S128x128_1_0) : (⟨S128x128, .f32⟩ : BufTy).Contents (Elt F) → (⟨S128x128, .f32⟩ : BufTy).Contents (Elt F)),
    binary main_v25 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v30) (TRef.of (T := ⟨S100000x128, .f32⟩) main_call1_v0) (TRef.of (T := ⟨S100000x128, .f32⟩) main_v31) maximumf ]

/-- Piece 3 of the line: operations 42–47. -/
abbrev s3 : List (HloOp τ sig (Elt F)) :=
  [ reshape main_v31 main_v32 rfl shapeCasts_S100000x128_S2x50000x128,
    nullary main_cst_4 (constant S_ .f32 0x00000000#32),
    binary main_v32 main_cst_4 main_v33 ((fun x v => Host.reduceAdd x v reducesTo_S2x50000x128_S50000x128_d0 h_S_) : (⟨S2x50000x128, .f32⟩ : BufTy).Contents (Elt F) → (⟨S_, .f32⟩ : BufTy).Contents (Elt F) → (⟨S50000x128, .f32⟩ : BufTy).Contents (Elt F)),
    nullary main_cst_5 (constant S_ .f32 0x40000000#32),
    unary main_cst_5 main_v34 (broadcastInDim S50000x128 ![] bcast_S_S50000x128 : (⟨S_, .f32⟩ : BufTy).Contents (Elt F) → (⟨S50000x128, .f32⟩ : BufTy).Contents (Elt F)),
    binary main_v33 main_v34 main_v35 (Host.divf : (⟨S50000x128, .f32⟩ : BufTy).Contents (Elt F) → (⟨S50000x128, .f32⟩ : BufTy).Contents (Elt F) → (⟨S50000x128, .f32⟩ : BufTy).Contents (Elt F)) ]

/-- Piece 4 of the line: operations 48–56. -/
abbrev s4 : List (HloOp τ sig (Elt F)) :=
  [ nullary main_c_6 (constantI S_ 32 0#32),
    unary main_c_6 main_v36 (broadcastInDim S131072 ![] bcast_S_S131072 : (⟨S_, .i32⟩ : BufTy).Contents (Elt F) → (⟨S131072, .i32⟩ : BufTy).Contents (Elt F)),
    binary main_arg7 main_v36 main_v37 (cmpi .slt : (⟨S131072, .i32⟩ : BufTy).Contents (Elt F) → (⟨S131072, .i32⟩ : BufTy).Contents (Elt F) → (⟨S131072, .i1⟩ : BufTy).Contents (Elt F)),
    nullary main_c_7 (constantI S_ 32 50000#32),
    unary main_c_7 main_v38 (broadcastInDim S131072 ![] bcast_S_S131072 : (⟨S_, .i32⟩ : BufTy).Contents (Elt F) → (⟨S131072, .i32⟩ : BufTy).Contents (Elt F)),
    binary main_arg7 main_v38 main_v39 (addi : (⟨S131072, .i32⟩ : BufTy).Contents (Elt F) → (⟨S131072, .i32⟩ : BufTy).Contents (Elt F) → (⟨S131072, .i32⟩ : BufTy).Contents (Elt F)),
    ternary main_v37 main_v39 main_arg7 main_v40 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v40 main_v41 (broadcastInDim S131072x1 ![0] bcast_S131072_S131072x1_0 : (⟨S131072, .i32⟩ : BufTy).Contents (Elt F) → (⟨S131072x1, .i32⟩ : BufTy).Contents (Elt F)),
    binary main_v35 main_v41 main_v42 ((fun x i => Host.gather gather_S50000x128_S131072x1_S131072x128_1_0_n_n_0_1_1128 x i) : (⟨S50000x128, .f32⟩ : BufTy).Contents (Elt F) → (⟨S131072x1, .i32⟩ : BufTy).Contents (Elt F) → (⟨S131072x128, .f32⟩ : BufTy).Contents (Elt F)) ]

/-- Piece 5 of the line: operations 57–65. -/
abbrev s5 : List (HloOp τ sig (Elt F)) :=
  [ nullary main_c_8 (constantI S_ 32 0#32),
    unary main_c_8 main_v43 (broadcastInDim S131072 ![] bcast_S_S131072 : (⟨S_, .i32⟩ : BufTy).Contents (Elt F) → (⟨S131072, .i32⟩ : BufTy).Contents (Elt F)),
    binary main_arg8 main_v43 main_v44 (cmpi .slt : (⟨S131072, .i32⟩ : BufTy).Contents (Elt F) → (⟨S131072, .i32⟩ : BufTy).Contents (Elt F) → (⟨S131072, .i1⟩ : BufTy).Contents (Elt F)),
    nullary main_c_9 (constantI S_ 32 500#32),
    unary main_c_9 main_v45 (broadcastInDim S131072 ![] bcast_S_S131072 : (⟨S_, .i32⟩ : BufTy).Contents (Elt F) → (⟨S131072, .i32⟩ : BufTy).Contents (Elt F)),
    binary main_arg8 main_v45 main_v46 (addi : (⟨S131072, .i32⟩ : BufTy).Contents (Elt F) → (⟨S131072, .i32⟩ : BufTy).Contents (Elt F) → (⟨S131072, .i32⟩ : BufTy).Contents (Elt F)),
    ternary main_v44 main_v46 main_arg8 main_v47 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v47 main_v48 (broadcastInDim S131072x1 ![0] bcast_S131072_S131072x1_0 : (⟨S131072, .i32⟩ : BufTy).Contents (Elt F) → (⟨S131072x1, .i32⟩ : BufTy).Contents (Elt F)),
    binary main_arg3 main_v48 main_v49 ((fun x i => Host.gather gather_S500x128_S131072x1_S131072x128_1_0_n_n_0_1_1128 x i) : (⟨S500x128, .f32⟩ : BufTy).Contents (Elt F) → (⟨S131072x1, .i32⟩ : BufTy).Contents (Elt F) → (⟨S131072x128, .f32⟩ : BufTy).Contents (Elt F)) ]

/-- Piece 6 of the line: operations 66–74. -/
abbrev s6 : List (HloOp τ sig (Elt F)) :=
  [ nullary main_c_10 (constantI S_ 32 0#32),
    unary main_c_10 main_v50 (broadcastInDim S131072 ![] bcast_S_S131072 : (⟨S_, .i32⟩ : BufTy).Contents (Elt F) → (⟨S131072, .i32⟩ : BufTy).Contents (Elt F)),
    binary main_arg9 main_v50 main_v51 (cmpi .slt : (⟨S131072, .i32⟩ : BufTy).Contents (Elt F) → (⟨S131072, .i32⟩ : BufTy).Contents (Elt F) → (⟨S131072, .i1⟩ : BufTy).Contents (Elt F)),
    nullary main_c_11 (constantI S_ 32 50000#32),
    unary main_c_11 main_v52 (broadcastInDim S131072 ![] bcast_S_S131072 : (⟨S_, .i32⟩ : BufTy).Contents (Elt F) → (⟨S131072, .i32⟩ : BufTy).Contents (Elt F)),
    binary main_arg9 main_v52 main_v53 (addi : (⟨S131072, .i32⟩ : BufTy).Contents (Elt F) → (⟨S131072, .i32⟩ : BufTy).Contents (Elt F) → (⟨S131072, .i32⟩ : BufTy).Contents (Elt F)),
    ternary main_v51 main_v53 main_arg9 main_v54 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v54 main_v55 (broadcastInDim S131072x1 ![0] bcast_S131072_S131072x1_0 : (⟨S131072, .i32⟩ : BufTy).Contents (Elt F) → (⟨S131072x1, .i32⟩ : BufTy).Contents (Elt F)),
    binary main_v35 main_v55 main_v56 ((fun x i => Host.gather gather_S50000x128_S131072x1_S131072x128_1_0_n_n_0_1_1128 x i) : (⟨S50000x128, .f32⟩ : BufTy).Contents (Elt F) → (⟨S131072x1, .i32⟩ : BufTy).Contents (Elt F) → (⟨S131072x128, .f32⟩ : BufTy).Contents (Elt F)) ]

/-- Piece 7 of the line: operations 75–93. -/
abbrev s7 : List (HloOp τ sig (Elt F)) :=
  [ nullary main_c_12 (constantI S_ 32 0#32),
    unary main_c_12 main_v57 (broadcastInDim S131072 ![] bcast_S_S131072 : (⟨S_, .i32⟩ : BufTy).Contents (Elt F) → (⟨S131072, .i32⟩ : BufTy).Contents (Elt F)),
    binary main_arg10 main_v57 main_v58 (cmpi .slt : (⟨S131072, .i32⟩ : BufTy).Contents (Elt F) → (⟨S131072, .i32⟩ : BufTy).Contents (Elt F) → (⟨S131072, .i1⟩ : BufTy).Contents (Elt F)),
    nullary main_c_13 (constantI S_ 32 365#32),
    unary main_c_13 main_v59 (broadcastInDim S131072 ![] bcast_S_S131072 : (⟨S_, .i32⟩ : BufTy).Contents (Elt F) → (⟨S131072, .i32⟩ : BufTy).Contents (Elt F)),
    binary main_arg10 main_v59 main_v60 (addi : (⟨S131072, .i32⟩ : BufTy).Contents (Elt F) → (⟨S131072, .i32⟩ : BufTy).Contents (Elt F) → (⟨S131072, .i32⟩ : BufTy).Contents (Elt F)),
    ternary main_v58 main_v60 main_arg10 main_v61 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v61 main_v62 (broadcastInDim S131072x1 ![0] bcast_S131072_S131072x1_0 : (⟨S131072, .i32⟩ : BufTy).Contents (Elt F) → (⟨S131072x1, .i32⟩ : BufTy).Contents (Elt F)),
    binary main_arg4 main_v62 main_v63 ((fun x i => Host.gather gather_S365x128_S131072x1_S131072x128_1_0_n_n_0_1_1128 x i) : (⟨S365x128, .f32⟩ : BufTy).Contents (Elt F) → (⟨S131072x1, .i32⟩ : BufTy).Contents (Elt F) → (⟨S131072x128, .f32⟩ : BufTy).Contents (Elt F)),
    TRef.binary (TRef.of (T := ⟨S131072x128, .f32⟩) main_v63) (TRef.of (T := ⟨S131072x128, .f32⟩) main_v63) (TRef.of (T := ⟨S131072x128, .f32⟩) main_call2_v0) mulf,
    TRef.nullary (TRef.of (T := ⟨S_, .f32⟩) main_call2_cst) (constant S_ .f32 0x00000000#32),
    TRef.binary (TRef.of (T := ⟨S131072x128, .f32⟩) main_call2_v0) (TRef.of (T := ⟨S_, .f32⟩) main_call2_cst) (TRef.of (T := ⟨S131072, .f32⟩) main_call2_v1) (fun x v => Host.reduceAdd x v reducesTo_S131072x128_S131072_d1 h_S_),
    TRef.unary (TRef.of (T := ⟨S131072, .f32⟩) main_call2_v1) (TRef.of (T := ⟨S131072x1, .f32⟩) main_call2_v2) (broadcastInDim S131072x1 ![0] bcast_S131072_S131072x1_0),
    TRef.unary (TRef.of (T := ⟨S131072x1, .f32⟩) main_call2_v2) (TRef.of (T := ⟨S131072x1, .f32⟩) main_v64) Host.sqrt,
    nullary main_cst_14 (constant S_ .f32 0x2B8CBCCC#32),
    unary main_cst_14 main_v65 (broadcastInDim S131072x1 ![] bcast_S_S131072x1 : (⟨S_, .f32⟩ : BufTy).Contents (Elt F) → (⟨S131072x1, .f32⟩ : BufTy).Contents (Elt F)),
    binary main_v64 main_v65 main_v66 (maximumf : (⟨S131072x1, .f32⟩ : BufTy).Contents (Elt F) → (⟨S131072x1, .f32⟩ : BufTy).Contents (Elt F) → (⟨S131072x1, .f32⟩ : BufTy).Contents (Elt F)),
    unary main_v66 main_v67 (broadcastInDim S131072x128 ![0, 1] bcast_S131072x1_S131072x128_0_1 : (⟨S131072x1, .f32⟩ : BufTy).Contents (Elt F) → (⟨S131072x128, .f32⟩ : BufTy).Contents (Elt F)),
    binary main_v63 main_v67 main_v68 (Host.divf : (⟨S131072x128, .f32⟩ : BufTy).Contents (Elt F) → (⟨S131072x128, .f32⟩ : BufTy).Contents (Elt F) → (⟨S131072x128, .f32⟩ : BufTy).Contents (Elt F)) ]

/-- Piece 8 of the line: operations 94–110. -/
abbrev s8 : List (HloOp τ sig (Elt F)) :=
  [ binary main_v68 main_v42 main_v69 (mulf : (⟨S131072x128, .f32⟩ : BufTy).Contents (Elt F) → (⟨S131072x128, .f32⟩ : BufTy).Contents (Elt F) → (⟨S131072x128, .f32⟩ : BufTy).Contents (Elt F)),
    nullary main_cst_15 (constant S_ .f32 0x00000000#32),
    binary main_v69 main_cst_15 main_v70 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v70 main_v71 (broadcastInDim S131072x1 ![0] bcast_S131072_S131072x1_0 : (⟨S131072, .f32⟩ : BufTy).Contents (Elt F) → (⟨S131072x1, .f32⟩ : BufTy).Contents (Elt F)),
    unary main_v71 main_v72 (broadcastInDim S131072x128 ![0, 1] bcast_S131072x1_S131072x128_0_1 : (⟨S131072x1, .f32⟩ : BufTy).Contents (Elt F) → (⟨S131072x128, .f32⟩ : BufTy).Contents (Elt F)),
    binary main_v72 main_v68 main_v73 (mulf : (⟨S131072x128, .f32⟩ : BufTy).Contents (Elt F) → (⟨S131072x128, .f32⟩ : BufTy).Contents (Elt F) → (⟨S131072x128, .f32⟩ : BufTy).Contents (Elt F)),
    binary main_v42 main_v73 main_v74 (subf : (⟨S131072x128, .f32⟩ : BufTy).Contents (Elt F) → (⟨S131072x128, .f32⟩ : BufTy).Contents (Elt F) → (⟨S131072x128, .f32⟩ : BufTy).Contents (Elt F)),
    TRef.binary (TRef.of (T := ⟨S131072x128, .f32⟩) main_v74) (TRef.of (T := ⟨S131072x128, .f32⟩) main_v74) (TRef.of (T := ⟨S131072x128, .f32⟩) main_call3_v0) mulf,
    TRef.nullary (TRef.of (T := ⟨S_, .f32⟩) main_call3_cst) (constant S_ .f32 0x00000000#32),
    TRef.binary (TRef.of (T := ⟨S131072x128, .f32⟩) main_call3_v0) (TRef.of (T := ⟨S_, .f32⟩) main_call3_cst) (TRef.of (T := ⟨S131072, .f32⟩) main_call3_v1) (fun x v => Host.reduceAdd x v reducesTo_S131072x128_S131072_d1 h_S_),
    TRef.unary (TRef.of (T := ⟨S131072, .f32⟩) main_call3_v1) (TRef.of (T := ⟨S131072x1, .f32⟩) main_call3_v2) (broadcastInDim S131072x1 ![0] bcast_S131072_S131072x1_0),
    TRef.unary (TRef.of (T := ⟨S131072x1, .f32⟩) main_call3_v2) (TRef.of (T := ⟨S131072x1, .f32⟩) main_v75) Host.sqrt,
    nullary main_cst_16 (constant S_ .f32 0x2B8CBCCC#32),
    unary main_cst_16 main_v76 (broadcastInDim S131072x1 ![] bcast_S_S131072x1 : (⟨S_, .f32⟩ : BufTy).Contents (Elt F) → (⟨S131072x1, .f32⟩ : BufTy).Contents (Elt F)),
    binary main_v75 main_v76 main_v77 (maximumf : (⟨S131072x1, .f32⟩ : BufTy).Contents (Elt F) → (⟨S131072x1, .f32⟩ : BufTy).Contents (Elt F) → (⟨S131072x1, .f32⟩ : BufTy).Contents (Elt F)),
    unary main_v77 main_v78 (broadcastInDim S131072x128 ![0, 1] bcast_S131072x1_S131072x128_0_1 : (⟨S131072x1, .f32⟩ : BufTy).Contents (Elt F) → (⟨S131072x128, .f32⟩ : BufTy).Contents (Elt F)),
    binary main_v74 main_v78 main_v79 (Host.divf : (⟨S131072x128, .f32⟩ : BufTy).Contents (Elt F) → (⟨S131072x128, .f32⟩ : BufTy).Contents (Elt F) → (⟨S131072x128, .f32⟩ : BufTy).Contents (Elt F)) ]

/-- Piece 9 of the line: operations 111–127. -/
abbrev s9 : List (HloOp τ sig (Elt F)) :=
  [ binary main_v68 main_v49 main_v80 (mulf : (⟨S131072x128, .f32⟩ : BufTy).Contents (Elt F) → (⟨S131072x128, .f32⟩ : BufTy).Contents (Elt F) → (⟨S131072x128, .f32⟩ : BufTy).Contents (Elt F)),
    nullary main_cst_17 (constant S_ .f32 0x00000000#32),
    binary main_v80 main_cst_17 main_v81 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v81 main_v82 (broadcastInDim S131072x1 ![0] bcast_S131072_S131072x1_0 : (⟨S131072, .f32⟩ : BufTy).Contents (Elt F) → (⟨S131072x1, .f32⟩ : BufTy).Contents (Elt F)),
    unary main_v82 main_v83 (broadcastInDim S131072x128 ![0, 1] bcast_S131072x1_S131072x128_0_1 : (⟨S131072x1, .f32⟩ : BufTy).Contents (Elt F) → (⟨S131072x128, .f32⟩ : BufTy).Contents (Elt F)),
    binary main_v83 main_v68 main_v84 (mulf : (⟨S131072x128, .f32⟩ : BufTy).Contents (Elt F) → (⟨S131072x128, .f32⟩ : BufTy).Contents (Elt F) → (⟨S131072x128, .f32⟩ : BufTy).Contents (Elt F)),
    binary main_v49 main_v84 main_v85 (subf : (⟨S131072x128, .f32⟩ : BufTy).Contents (Elt F) → (⟨S131072x128, .f32⟩ : BufTy).Contents (Elt F) → (⟨S131072x128, .f32⟩ : BufTy).Contents (Elt F)),
    TRef.binary (TRef.of (T := ⟨S131072x128, .f32⟩) main_v85) (TRef.of (T := ⟨S131072x128, .f32⟩) main_v85) (TRef.of (T := ⟨S131072x128, .f32⟩) main_call4_v0) mulf,
    TRef.nullary (TRef.of (T := ⟨S_, .f32⟩) main_call4_cst) (constant S_ .f32 0x00000000#32),
    TRef.binary (TRef.of (T := ⟨S131072x128, .f32⟩) main_call4_v0) (TRef.of (T := ⟨S_, .f32⟩) main_call4_cst) (TRef.of (T := ⟨S131072, .f32⟩) main_call4_v1) (fun x v => Host.reduceAdd x v reducesTo_S131072x128_S131072_d1 h_S_),
    TRef.unary (TRef.of (T := ⟨S131072, .f32⟩) main_call4_v1) (TRef.of (T := ⟨S131072x1, .f32⟩) main_call4_v2) (broadcastInDim S131072x1 ![0] bcast_S131072_S131072x1_0),
    TRef.unary (TRef.of (T := ⟨S131072x1, .f32⟩) main_call4_v2) (TRef.of (T := ⟨S131072x1, .f32⟩) main_v86) Host.sqrt,
    nullary main_cst_18 (constant S_ .f32 0x2B8CBCCC#32),
    unary main_cst_18 main_v87 (broadcastInDim S131072x1 ![] bcast_S_S131072x1 : (⟨S_, .f32⟩ : BufTy).Contents (Elt F) → (⟨S131072x1, .f32⟩ : BufTy).Contents (Elt F)),
    binary main_v86 main_v87 main_v88 (maximumf : (⟨S131072x1, .f32⟩ : BufTy).Contents (Elt F) → (⟨S131072x1, .f32⟩ : BufTy).Contents (Elt F) → (⟨S131072x1, .f32⟩ : BufTy).Contents (Elt F)),
    unary main_v88 main_v89 (broadcastInDim S131072x128 ![0, 1] bcast_S131072x1_S131072x128_0_1 : (⟨S131072x1, .f32⟩ : BufTy).Contents (Elt F) → (⟨S131072x128, .f32⟩ : BufTy).Contents (Elt F)),
    binary main_v85 main_v89 main_v90 (Host.divf : (⟨S131072x128, .f32⟩ : BufTy).Contents (Elt F) → (⟨S131072x128, .f32⟩ : BufTy).Contents (Elt F) → (⟨S131072x128, .f32⟩ : BufTy).Contents (Elt F)) ]

/-- Piece 10 of the line: operations 128–144. -/
abbrev s10 : List (HloOp τ sig (Elt F)) :=
  [ binary main_v68 main_v56 main_v91 (mulf : (⟨S131072x128, .f32⟩ : BufTy).Contents (Elt F) → (⟨S131072x128, .f32⟩ : BufTy).Contents (Elt F) → (⟨S131072x128, .f32⟩ : BufTy).Contents (Elt F)),
    nullary main_cst_19 (constant S_ .f32 0x00000000#32),
    binary main_v91 main_cst_19 main_v92 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v92 main_v93 (broadcastInDim S131072x1 ![0] bcast_S131072_S131072x1_0 : (⟨S131072, .f32⟩ : BufTy).Contents (Elt F) → (⟨S131072x1, .f32⟩ : BufTy).Contents (Elt F)),
    unary main_v93 main_v94 (broadcastInDim S131072x128 ![0, 1] bcast_S131072x1_S131072x128_0_1 : (⟨S131072x1, .f32⟩ : BufTy).Contents (Elt F) → (⟨S131072x128, .f32⟩ : BufTy).Contents (Elt F)),
    binary main_v94 main_v68 main_v95 (mulf : (⟨S131072x128, .f32⟩ : BufTy).Contents (Elt F) → (⟨S131072x128, .f32⟩ : BufTy).Contents (Elt F) → (⟨S131072x128, .f32⟩ : BufTy).Contents (Elt F)),
    binary main_v56 main_v95 main_v96 (subf : (⟨S131072x128, .f32⟩ : BufTy).Contents (Elt F) → (⟨S131072x128, .f32⟩ : BufTy).Contents (Elt F) → (⟨S131072x128, .f32⟩ : BufTy).Contents (Elt F)),
    TRef.binary (TRef.of (T := ⟨S131072x128, .f32⟩) main_v96) (TRef.of (T := ⟨S131072x128, .f32⟩) main_v96) (TRef.of (T := ⟨S131072x128, .f32⟩) main_call5_v0) mulf,
    TRef.nullary (TRef.of (T := ⟨S_, .f32⟩) main_call5_cst) (constant S_ .f32 0x00000000#32),
    TRef.binary (TRef.of (T := ⟨S131072x128, .f32⟩) main_call5_v0) (TRef.of (T := ⟨S_, .f32⟩) main_call5_cst) (TRef.of (T := ⟨S131072, .f32⟩) main_call5_v1) (fun x v => Host.reduceAdd x v reducesTo_S131072x128_S131072_d1 h_S_),
    TRef.unary (TRef.of (T := ⟨S131072, .f32⟩) main_call5_v1) (TRef.of (T := ⟨S131072x1, .f32⟩) main_call5_v2) (broadcastInDim S131072x1 ![0] bcast_S131072_S131072x1_0),
    TRef.unary (TRef.of (T := ⟨S131072x1, .f32⟩) main_call5_v2) (TRef.of (T := ⟨S131072x1, .f32⟩) main_v97) Host.sqrt,
    nullary main_cst_20 (constant S_ .f32 0x2B8CBCCC#32),
    unary main_cst_20 main_v98 (broadcastInDim S131072x1 ![] bcast_S_S131072x1 : (⟨S_, .f32⟩ : BufTy).Contents (Elt F) → (⟨S131072x1, .f32⟩ : BufTy).Contents (Elt F)),
    binary main_v97 main_v98 main_v99 (maximumf : (⟨S131072x1, .f32⟩ : BufTy).Contents (Elt F) → (⟨S131072x1, .f32⟩ : BufTy).Contents (Elt F) → (⟨S131072x1, .f32⟩ : BufTy).Contents (Elt F)),
    unary main_v99 main_v100 (broadcastInDim S131072x128 ![0, 1] bcast_S131072x1_S131072x128_0_1 : (⟨S131072x1, .f32⟩ : BufTy).Contents (Elt F) → (⟨S131072x128, .f32⟩ : BufTy).Contents (Elt F)),
    binary main_v96 main_v100 main_v101 (Host.divf : (⟨S131072x128, .f32⟩ : BufTy).Contents (Elt F) → (⟨S131072x128, .f32⟩ : BufTy).Contents (Elt F) → (⟨S131072x128, .f32⟩ : BufTy).Contents (Elt F)) ]

/-- Piece 11 of the line: operations 145–150. -/
abbrev s11 : List (HloOp τ sig (Elt F)) :=
  [ binary main_v79 main_v90 main_v102 (addf : (⟨S131072x128, .f32⟩ : BufTy).Contents (Elt F) → (⟨S131072x128, .f32⟩ : BufTy).Contents (Elt F) → (⟨S131072x128, .f32⟩ : BufTy).Contents (Elt F)),
    binary main_v102 main_v101 main_v103 (subf : (⟨S131072x128, .f32⟩ : BufTy).Contents (Elt F) → (⟨S131072x128, .f32⟩ : BufTy).Contents (Elt F) → (⟨S131072x128, .f32⟩ : BufTy).Contents (Elt F)),
    TRef.binary (TRef.of (T := ⟨S131072x128, .f32⟩) main_v103) (TRef.of (T := ⟨S131072x128, .f32⟩) main_v103) (TRef.of (T := ⟨S131072x128, .f32⟩) main_call6_v0) mulf,
    TRef.nullary (TRef.of (T := ⟨S_, .f32⟩) main_call6_cst) (constant S_ .f32 0x00000000#32),
    TRef.binary (TRef.of (T := ⟨S131072x128, .f32⟩) main_call6_v0) (TRef.of (T := ⟨S_, .f32⟩) main_call6_cst) (TRef.of (T := ⟨S131072, .f32⟩) main_call6_v1) (fun x v => Host.reduceAdd x v reducesTo_S131072x128_S131072_d1 h_S_),
    TRef.unary (TRef.of (T := ⟨S131072, .f32⟩) main_call6_v1) (TRef.of (T := ⟨S131072, .f32⟩) main_v104) Host.sqrt ]

/-- The buffers piece 1 writes. -/
abbrev w1 : List (Ref sig .tc) :=
  [main_c, main_v0, main_v1, main_c_0, main_v2, main_v3, main_v4, main_v5, main_v6, main_cst, main_v7, main_v8, main_v9, main_v10, main_v11, main_v12, main_v13, main_v14, main_call0_cst, main_call0_v0, main_v15]

/-- The buffers piece 2 writes. -/
abbrev w2 : List (Ref sig .tc) :=
  [main_c_1, main_v16, main_v17, main_c_2, main_v18, main_v19, main_v20, main_v21, main_v22, main_cst_3, main_v23, main_v24, main_v25, main_v26, main_v27, main_v28, main_v29, main_v30, main_call1_cst, main_call1_v0, main_v31]

/-- The buffers piece 3 writes. -/
abbrev w3 : List (Ref sig .tc) :=
  [main_v32, main_cst_4, main_v33, main_cst_5, main_v34, main_v35]

/-- The buffers piece 4 writes. -/
abbrev w4 : List (Ref sig .tc) :=
  [main_c_6, main_v36, main_v37, main_c_7, main_v38, main_v39, main_v40, main_v41, main_v42]

/-- The buffers piece 5 writes. -/
abbrev w5 : List (Ref sig .tc) :=
  [main_c_8, main_v43, main_v44, main_c_9, main_v45, main_v46, main_v47, main_v48, main_v49]

/-- The buffers piece 6 writes. -/
abbrev w6 : List (Ref sig .tc) :=
  [main_c_10, main_v50, main_v51, main_c_11, main_v52, main_v53, main_v54, main_v55, main_v56]

/-- The buffers piece 7 writes. -/
abbrev w7 : List (Ref sig .tc) :=
  [main_c_12, main_v57, main_v58, main_c_13, main_v59, main_v60, main_v61, main_v62, main_v63, main_call2_v0, main_call2_cst, main_call2_v1, main_call2_v2, main_v64, main_cst_14, main_v65, main_v66, main_v67, main_v68]

/-- The buffers piece 8 writes. -/
abbrev w8 : List (Ref sig .tc) :=
  [main_v69, main_cst_15, main_v70, main_v71, main_v72, main_v73, main_v74, main_call3_v0, main_call3_cst, main_call3_v1, main_call3_v2, main_v75, main_cst_16, main_v76, main_v77, main_v78, main_v79]

/-- The buffers piece 9 writes. -/
abbrev w9 : List (Ref sig .tc) :=
  [main_v80, main_cst_17, main_v81, main_v82, main_v83, main_v84, main_v85, main_call4_v0, main_call4_cst, main_call4_v1, main_call4_v2, main_v86, main_cst_18, main_v87, main_v88, main_v89, main_v90]

/-- The buffers piece 10 writes. -/
abbrev w10 : List (Ref sig .tc) :=
  [main_v91, main_cst_19, main_v92, main_v93, main_v94, main_v95, main_v96, main_call5_v0, main_call5_cst, main_call5_v1, main_call5_v2, main_v97, main_cst_20, main_v98, main_v99, main_v100, main_v101]

/-- The buffers piece 11 writes. -/
abbrev w11 : List (Ref sig .tc) :=
  [main_v102, main_v103, main_call6_v0, main_call6_cst, main_call6_v1, main_v104]

theorem hW1 : (s1 : List (HloOp τ sig (Elt F))).Forall fun op => op.writes ⊆ ((w1).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem sub1 : (s1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub ..⟩

theorem fresh1 : (s1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem hW2 : (s2 : List (HloOp τ sig (Elt F))).Forall fun op => op.writes ⊆ ((w2).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem sub2 : (s2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub ..⟩

theorem fresh2 : (s2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem hW3 : (s3 : List (HloOp τ sig (Elt F))).Forall fun op => op.writes ⊆ ((w3).map (Proc.devRef (τ := τ) .tc)).toFinset :=
  ⟨wsub (by decide), wsub (by decide), wsub (by decide), wsub (by decide), wsub (by decide), wsub (by decide)⟩

theorem sub3 : (s3 : List (HloOp τ sig (Elt F))).Forall fun op => op.bufs ⊆ tcRefs τ sig :=
  ⟨reshape_bufs_sub .., nullary_bufs_sub .., binary_bufs_sub .., nullary_bufs_sub .., unary_bufs_sub .., binary_bufs_sub ..⟩

theorem fresh3 : (s3 : List (HloOp τ sig (Elt F))).Forall fun op => op.fresh = ∅ :=
  ⟨rfl, rfl, rfl, rfl, rfl, rfl⟩

theorem hW4 : (s4 : List (HloOp τ sig (Elt F))).Forall fun op => op.writes ⊆ ((w4).map (Proc.devRef (τ := τ) .tc)).toFinset :=
  ⟨wsub (by decide), wsub (by decide), wsub (by decide), wsub (by decide), wsub (by decide), wsub (by decide), wsub (by decide), wsub (by decide), wsub (by decide)⟩

theorem sub4 : (s4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem fresh4 : (s4 : List (HloOp τ sig (Elt F))).Forall fun op => op.fresh = ∅ :=
  ⟨rfl, rfl, rfl, rfl, rfl, rfl, rfl, rfl, rfl⟩

theorem hW5 : (s5 : List (HloOp τ sig (Elt F))).Forall fun op => op.writes ⊆ ((w5).map (Proc.devRef (τ := τ) .tc)).toFinset :=
  ⟨wsub (by decide), wsub (by decide), wsub (by decide), wsub (by decide), wsub (by decide), wsub (by decide), wsub (by decide), wsub (by decide), wsub (by decide)⟩

theorem sub5 : (s5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem fresh5 : (s5 : List (HloOp τ sig (Elt F))).Forall fun op => op.fresh = ∅ :=
  ⟨rfl, rfl, rfl, rfl, rfl, rfl, rfl, rfl, rfl⟩

theorem hW6 : (s6 : List (HloOp τ sig (Elt F))).Forall fun op => op.writes ⊆ ((w6).map (Proc.devRef (τ := τ) .tc)).toFinset :=
  ⟨wsub (by decide), wsub (by decide), wsub (by decide), wsub (by decide), wsub (by decide), wsub (by decide), wsub (by decide), wsub (by decide), wsub (by decide)⟩

theorem sub6 : (s6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem fresh6 : (s6 : List (HloOp τ sig (Elt F))).Forall fun op => op.fresh = ∅ :=
  ⟨rfl, rfl, rfl, rfl, rfl, rfl, rfl, rfl, rfl⟩

theorem hW7 : (s7 : List (HloOp τ sig (Elt F))).Forall fun op => op.writes ⊆ ((w7).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem sub7 : (s7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem fresh7 : (s7 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem hW8 : (s8 : List (HloOp τ sig (Elt F))).Forall fun op => op.writes ⊆ ((w8).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem sub8 : (s8 : List (HloOp τ sig (Elt F))).Forall fun op => op.bufs ⊆ tcRefs τ sig :=
  ⟨binary_bufs_sub .., nullary_bufs_sub .., binary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem fresh8 : (s8 : List (HloOp τ sig (Elt F))).Forall fun op => op.fresh = ∅ :=
  ⟨rfl, rfl, rfl, rfl, rfl, rfl, rfl, rfl, rfl, rfl, rfl, rfl, rfl, rfl, rfl, rfl, rfl⟩

theorem hW9 : (s9 : List (HloOp τ sig (Elt F))).Forall fun op => op.writes ⊆ ((w9).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem sub9 : (s9 : List (HloOp τ sig (Elt F))).Forall fun op => op.bufs ⊆ tcRefs τ sig :=
  ⟨binary_bufs_sub .., nullary_bufs_sub .., binary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem fresh9 : (s9 : List (HloOp τ sig (Elt F))).Forall fun op => op.fresh = ∅ :=
  ⟨rfl, rfl, rfl, rfl, rfl, rfl, rfl, rfl, rfl, rfl, rfl, rfl, rfl, rfl, rfl, rfl, rfl⟩

theorem hW10 : (s10 : List (HloOp τ sig (Elt F))).Forall fun op => op.writes ⊆ ((w10).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem sub10 : (s10 : List (HloOp τ sig (Elt F))).Forall fun op => op.bufs ⊆ tcRefs τ sig :=
  ⟨binary_bufs_sub .., nullary_bufs_sub .., binary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem fresh10 : (s10 : List (HloOp τ sig (Elt F))).Forall fun op => op.fresh = ∅ :=
  ⟨rfl, rfl, rfl, rfl, rfl, rfl, rfl, rfl, rfl, rfl, rfl, rfl, rfl, rfl, rfl, rfl, rfl⟩

theorem hW11 : (s11 : List (HloOp τ sig (Elt F))).Forall fun op => op.writes ⊆ ((w11).map (Proc.devRef (τ := τ) .tc)).toFinset :=
  ⟨wsub (by decide), wsub (by decide), wsub (by decide), wsub (by decide), wsub (by decide), wsub (by decide)⟩

theorem sub11 : (s11 : List (HloOp τ sig (Elt F))).Forall fun op => op.bufs ⊆ tcRefs τ sig :=
  ⟨binary_bufs_sub .., binary_bufs_sub .., binary_bufs_sub .., nullary_bufs_sub .., binary_bufs_sub .., unary_bufs_sub ..⟩

theorem fresh11 : (s11 : List (HloOp τ sig (Elt F))).Forall fun op => op.fresh = ∅ :=
  ⟨rfl, rfl, rfl, rfl, rfl, rfl⟩

set_option maxHeartbeats 400000 in
/-- Piece 1: from the values of what it reads, `main_v15` ends at its stage. -/
theorem cut1 (V : Valuation τ sig (Elt F)) (x0 : Arr[S100000x128, .f32]) (x1 : Arr[S128x128, .f32]) (x2 : Arr[S128, .f32]) (x5 x6 : Arr[S1600000, .i32])
    (h0 : V (Proc.devRef .tc main_arg0) = x0) (h1 : V (Proc.devRef .tc main_arg1) = x1) (h2 : V (Proc.devRef .tc main_arg2) = x2) (h5 : V (Proc.devRef .tc main_arg5) = x5) (h6 : V (Proc.devRef .tc main_arg6) = x6) :
    after s1 V (Proc.devRef .tc main_v15) = ReadP.val_main_v15 x0 x1 x2 x5 x6 := by
  after_results_simp
  rw [h0, h1, h2, h5, h6]
  rfl

set_option maxHeartbeats 400000 in
/-- Piece 2: from the values of what it reads, `main_v31` ends at its stage. -/
theorem cut2 (V : Valuation τ sig (Elt F)) (x0 : Arr[S100000x128, .f32]) (x1 : Arr[S128x128, .f32]) (x2 : Arr[S128, .f32]) (x5 x6 : Arr[S1600000, .i32])
    (hv15 : V (Proc.devRef .tc main_v15) = ReadP.val_main_v15 x0 x1 x2 x5 x6) (h1 : V (Proc.devRef .tc main_arg1) = x1) (h2 : V (Proc.devRef .tc main_arg2) = x2) (h5 : V (Proc.devRef .tc main_arg5) = x5) (h6 : V (Proc.devRef .tc main_arg6) = x6) :
    after s2 V (Proc.devRef .tc main_v31) = ReadP.val_main_v31 x0 x1 x2 x5 x6 := by
  after_results_simp
  rw [hv15, h1, h2, h5, h6]
  rfl

set_option maxHeartbeats 400000 in
/-- Piece 3: from the values of what it reads, `main_v35` ends at its stage. -/
theorem cut3 (V : Valuation τ sig (Elt F)) (x0 : Arr[S100000x128, .f32]) (x1 : Arr[S128x128, .f32]) (x2 : Arr[S128, .f32]) (x5 x6 : Arr[S1600000, .i32])
    (hv31 : V (Proc.devRef .tc main_v31) = ReadP.val_main_v31 x0 x1 x2 x5 x6) :
    after s3 V (Proc.devRef .tc main_v35) = ReadP.val_main_v35 x0 x1 x2 x5 x6 := by
  after_results_simp
  rw [hv31]
  rfl

set_option maxHeartbeats 400000 in
/-- Piece 4: from the values of what it reads, `main_v42` ends at its stage. -/
theorem cut4 (V : Valuation τ sig (Elt F)) (x0 : Arr[S100000x128, .f32]) (x1 : Arr[S128x128, .f32]) (x2 : Arr[S128, .f32]) (x5 x6 : Arr[S1600000, .i32]) (x7 : Arr[S131072, .i32])
    (hv35 : V (Proc.devRef .tc main_v35) = ReadP.val_main_v35 x0 x1 x2 x5 x6) (h7 : V (Proc.devRef .tc main_arg7) = x7) :
    after s4 V (Proc.devRef .tc main_v42) = ReadP.val_main_v42 x0 x1 x2 x5 x6 x7 := by
  after_results_simp
  rw [hv35, h7]
  rfl

set_option maxHeartbeats 400000 in
/-- Piece 5: from the values of what it reads, `main_v49` ends at its stage. -/
theorem cut5 (V : Valuation τ sig (Elt F)) (x3 : Arr[S500x128, .f32]) (x8 : Arr[S131072, .i32])
    (h3 : V (Proc.devRef .tc main_arg3) = x3) (h8 : V (Proc.devRef .tc main_arg8) = x8) :
    after s5 V (Proc.devRef .tc main_v49) = ReadP.val_main_v49 x3 x8 := by
  after_results_simp
  rw [h3, h8]
  rfl

set_option maxHeartbeats 400000 in
/-- Piece 6: from the values of what it reads, `main_v56` ends at its stage. -/
theorem cut6 (V : Valuation τ sig (Elt F)) (x0 : Arr[S100000x128, .f32]) (x1 : Arr[S128x128, .f32]) (x2 : Arr[S128, .f32]) (x5 x6 : Arr[S1600000, .i32]) (x9 : Arr[S131072, .i32])
    (hv35 : V (Proc.devRef .tc main_v35) = ReadP.val_main_v35 x0 x1 x2 x5 x6) (h9 : V (Proc.devRef .tc main_arg9) = x9) :
    after s6 V (Proc.devRef .tc main_v56) = ReadP.val_main_v56 x0 x1 x2 x5 x6 x9 := by
  after_results_simp
  rw [hv35, h9]
  rfl

set_option maxHeartbeats 400000 in
/-- Piece 7: from the values of what it reads, `main_v68` ends at its stage. -/
theorem cut7 (V : Valuation τ sig (Elt F)) (x4 : Arr[S365x128, .f32]) (x10 : Arr[S131072, .i32])
    (h4 : V (Proc.devRef .tc main_arg4) = x4) (h10 : V (Proc.devRef .tc main_arg10) = x10) :
    after s7 V (Proc.devRef .tc main_v68) = ReadP.val_main_v68 x4 x10 := by
  after_results_simp
  rw [h4, h10]
  rfl

set_option maxHeartbeats 400000 in
/-- Piece 8: from the values of what it reads, `main_v79` ends at its stage. -/
theorem cut8 (V : Valuation τ sig (Elt F)) (x0 : Arr[S100000x128, .f32]) (x1 : Arr[S128x128, .f32]) (x2 : Arr[S128, .f32]) (x4 : Arr[S365x128, .f32]) (x5 x6 : Arr[S1600000, .i32]) (x7 x10 : Arr[S131072, .i32])
    (hv68 : V (Proc.devRef .tc main_v68) = ReadP.val_main_v68 x4 x10) (hv42 : V (Proc.devRef .tc main_v42) = ReadP.val_main_v42 x0 x1 x2 x5 x6 x7) :
    after s8 V (Proc.devRef .tc main_v79) = ReadP.val_main_v79 x0 x1 x2 x4 x5 x6 x7 x10 := by
  after_results_simp
  rw [hv68, hv42]
  rfl

set_option maxHeartbeats 400000 in
/-- Piece 9: from the values of what it reads, `main_v90` ends at its stage. -/
theorem cut9 (V : Valuation τ sig (Elt F)) (x3 : Arr[S500x128, .f32]) (x4 : Arr[S365x128, .f32]) (x8 x10 : Arr[S131072, .i32])
    (hv68 : V (Proc.devRef .tc main_v68) = ReadP.val_main_v68 x4 x10) (hv49 : V (Proc.devRef .tc main_v49) = ReadP.val_main_v49 x3 x8) :
    after s9 V (Proc.devRef .tc main_v90) = ReadP.val_main_v90 x3 x4 x8 x10 := by
  after_results_simp
  rw [hv68, hv49]
  rfl

set_option maxHeartbeats 400000 in
/-- Piece 10: from the values of what it reads, `main_v101` ends at its stage. -/
theorem cut10 (V : Valuation τ sig (Elt F)) (x0 : Arr[S100000x128, .f32]) (x1 : Arr[S128x128, .f32]) (x2 : Arr[S128, .f32]) (x4 : Arr[S365x128, .f32]) (x5 x6 : Arr[S1600000, .i32]) (x9 x10 : Arr[S131072, .i32])
    (hv68 : V (Proc.devRef .tc main_v68) = ReadP.val_main_v68 x4 x10) (hv56 : V (Proc.devRef .tc main_v56) = ReadP.val_main_v56 x0 x1 x2 x5 x6 x9) :
    after s10 V (Proc.devRef .tc main_v101) = ReadP.val_main_v101 x0 x1 x2 x4 x5 x6 x9 x10 := by
  after_results_simp
  rw [hv68, hv56]
  rfl

set_option maxHeartbeats 400000 in
/-- Piece 11: from the values of what it reads, `main_v104` ends at its stage. -/
theorem cut11 (V : Valuation τ sig (Elt F)) (x0 : Arr[S100000x128, .f32]) (x1 : Arr[S128x128, .f32]) (x2 : Arr[S128, .f32]) (x3 : Arr[S500x128, .f32]) (x4 : Arr[S365x128, .f32]) (x5 x6 : Arr[S1600000, .i32]) (x7 x8 x9 x10 : Arr[S131072, .i32])
    (hv79 : V (Proc.devRef .tc main_v79) = ReadP.val_main_v79 x0 x1 x2 x4 x5 x6 x7 x10) (hv90 : V (Proc.devRef .tc main_v90) = ReadP.val_main_v90 x3 x4 x8 x10) (hv101 : V (Proc.devRef .tc main_v101) = ReadP.val_main_v101 x0 x1 x2 x4 x5 x6 x9 x10) :
    after s11 V (Proc.devRef .tc main_v104) = ReadP.val_main_v104 x0 x1 x2 x3 x4 x5 x6 x7 x8 x9 x10 := by
  after_results_simp
  rw [hv79, hv90, hv101]
  rfl

/-- The line: the eleven pieces one after the other. -/
abbrev ops : List (HloOp τ sig (Elt F)) :=
  s1 ++ (s2 ++ (s3 ++ (s4 ++ (s5 ++ (s6 ++ (s7 ++ (s8 ++ (s9 ++ (s10 ++ (s11))))))))))

/-- Every buffer the line writes. -/
abbrev wall : List (Ref sig .tc) :=
  w1 ++ (w2 ++ (w3 ++ (w4 ++ (w5 ++ (w6 ++ (w7 ++ (w8 ++ (w9 ++ (w10 ++ (w11))))))))))

/-- Writes of a concatenation lie in the concatenated lists. -/
theorem wapp {W₁ W₂ : List (Ref sig .tc)} {l₁ l₂ : List (HloOp τ sig (Elt F))}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  have e : ((W₁ ++ W₂).map (Proc.devRef (τ := τ) .tc)).toFinset
      = (W₁.map (Proc.devRef (τ := τ) .tc)).toFinset ∪ (W₂.map (Proc.devRef (τ := τ) .tc)).toFinset := by
    rw [List.map_append, List.toFinset_append]
  rw [e]
  exact List.forall_append.mpr ⟨List.Forall.imp (fun _ h => h.trans Finset.subset_union_left) h₁,
    List.Forall.imp (fun _ h => h.trans Finset.subset_union_right) h₂⟩

theorem hWall : (ops (F := F)).Forall fun op => op.writes ⊆ ((wall).map (Proc.devRef (τ := τ) .tc)).toFinset :=
  wapp hW1 (wapp hW2 (wapp hW3 (wapp hW4 (wapp hW5 (wapp hW6 (wapp hW7 (wapp hW8 (wapp hW9 (wapp hW10 (hW11))))))))))

set_option maxRecDepth 8192 in
set_option maxHeartbeats 4000000 in
/-- @main is that line, by unfolding. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Every operation touches TensorCore buffers only. -/
theorem ops_sub : (ops : List (HloOp τ sig (Elt F))).Forall fun op => op.bufs ⊆ tcRefs τ sig :=
  List.forall_append.mpr ⟨sub1, List.forall_append.mpr ⟨sub2, List.forall_append.mpr ⟨sub3, List.forall_append.mpr ⟨sub4, List.forall_append.mpr ⟨sub5, List.forall_append.mpr ⟨sub6, List.forall_append.mpr ⟨sub7, List.forall_append.mpr ⟨sub8, List.forall_append.mpr ⟨sub9, List.forall_append.mpr ⟨sub10, sub11⟩⟩⟩⟩⟩⟩⟩⟩⟩⟩
/-- Every operation determines all it writes. -/
theorem ops_fresh : ∀ op ∈ (ops : List (HloOp τ sig (Elt F))), op.fresh = ∅ :=
  List.forall_iff_forall_mem.mp (List.forall_append.mpr ⟨fresh1, List.forall_append.mpr ⟨fresh2, List.forall_append.mpr ⟨fresh3, List.forall_append.mpr ⟨fresh4, List.forall_append.mpr ⟨fresh5, List.forall_append.mpr ⟨fresh6, List.forall_append.mpr ⟨fresh7, List.forall_append.mpr ⟨fresh8, List.forall_append.mpr ⟨fresh9, List.forall_append.mpr ⟨fresh10, fresh11⟩⟩⟩⟩⟩⟩⟩⟩⟩⟩)

/-- The whole line at the result buffer: the pieces chained. Each `f<k>_<b>` says what buffer `b` holds after
    piece `k`; a buffer a piece does not write is carried across it. -/
theorem result_eq (V : Valuation τ sig (Elt F)) (x0 : Arr[S100000x128, .f32]) (x1 : Arr[S128x128, .f32]) (x2 : Arr[S128, .f32]) (x3 : Arr[S500x128, .f32]) (x4 : Arr[S365x128, .f32]) (x5 x6 : Arr[S1600000, .i32]) (x7 x8 x9 x10 : Arr[S131072, .i32])
    (f0_x0 : V (Proc.devRef .tc main_arg0) = x0)
    (f0_x1 : V (Proc.devRef .tc main_arg1) = x1)
    (f0_x2 : V (Proc.devRef .tc main_arg2) = x2)
    (f0_x3 : V (Proc.devRef .tc main_arg3) = x3)
    (f0_x4 : V (Proc.devRef .tc main_arg4) = x4)
    (f0_x5 : V (Proc.devRef .tc main_arg5) = x5)
    (f0_x6 : V (Proc.devRef .tc main_arg6) = x6)
    (f0_x7 : V (Proc.devRef .tc main_arg7) = x7)
    (f0_x8 : V (Proc.devRef .tc main_arg8) = x8)
    (f0_x9 : V (Proc.devRef .tc main_arg9) = x9)
    (f0_x10 : V (Proc.devRef .tc main_arg10) = x10) :
    after ops V (Proc.devRef .tc main_v104) = ReadP.val_main_v104 x0 x1 x2 x3 x4 x5 x6 x7 x8 x9 x10 := by
  have e : after (ops (F := F)) V = after s11 (after s10 (after s9 (after s8 (after s7 (after s6 (after s5 (after s4 (after s3 (after s2 (after s1 (V))))))))))) := by
    simp only [ops, after_app]
  rw [e]
  -- piece 1
  have f1_v15 := cut1 _ x0 x1 x2 x5 x6 f0_x0 f0_x1 f0_x2 f0_x5 f0_x6
  have f1_x1 := keep hW1 _ (r := main_arg1) (by decide) f0_x1
  have f1_x2 := keep hW1 _ (r := main_arg2) (by decide) f0_x2
  have f1_x3 := keep hW1 _ (r := main_arg3) (by decide) f0_x3
  have f1_x4 := keep hW1 _ (r := main_arg4) (by decide) f0_x4
  have f1_x5 := keep hW1 _ (r := main_arg5) (by decide) f0_x5
  have f1_x6 := keep hW1 _ (r := main_arg6) (by decide) f0_x6
  have f1_x7 := keep hW1 _ (r := main_arg7) (by decide) f0_x7
  have f1_x8 := keep hW1 _ (r := main_arg8) (by decide) f0_x8
  have f1_x9 := keep hW1 _ (r := main_arg9) (by decide) f0_x9
  have f1_x10 := keep hW1 _ (r := main_arg10) (by decide) f0_x10
  -- piece 2
  have f2_v31 := cut2 _ x0 x1 x2 x5 x6 f1_v15 f1_x1 f1_x2 f1_x5 f1_x6
  have f2_x3 := keep hW2 _ (r := main_arg3) (by decide) f1_x3
  have f2_x4 := keep hW2 _ (r := main_arg4) (by decide) f1_x4
  have f2_x7 := keep hW2 _ (r := main_arg7) (by decide) f1_x7
  have f2_x8 := keep hW2 _ (r := main_arg8) (by decide) f1_x8
  have f2_x9 := keep hW2 _ (r := main_arg9) (by decide) f1_x9
  have f2_x10 := keep hW2 _ (r := main_arg10) (by decide) f1_x10
  -- piece 3
  have f3_v35 := cut3 _ x0 x1 x2 x5 x6 f2_v31
  have f3_x3 := keep hW3 _ (r := main_arg3) (by decide) f2_x3
  have f3_x4 := keep hW3 _ (r := main_arg4) (by decide) f2_x4
  have f3_x7 := keep hW3 _ (r := main_arg7) (by decide) f2_x7
  have f3_x8 := keep hW3 _ (r := main_arg8) (by decide) f2_x8
  have f3_x9 := keep hW3 _ (r := main_arg9) (by decide) f2_x9
  have f3_x10 := keep hW3 _ (r := main_arg10) (by decide) f2_x10
  -- piece 4
  have f4_v42 := cut4 _ x0 x1 x2 x5 x6 x7 f3_v35 f3_x7
  have f4_x3 := keep hW4 _ (r := main_arg3) (by decide) f3_x3
  have f4_x4 := keep hW4 _ (r := main_arg4) (by decide) f3_x4
  have f4_x8 := keep hW4 _ (r := main_arg8) (by decide) f3_x8
  have f4_x9 := keep hW4 _ (r := main_arg9) (by decide) f3_x9
  have f4_x10 := keep hW4 _ (r := main_arg10) (by decide) f3_x10
  have f4_v35 := keep hW4 _ (r := main_v35) (by decide) f3_v35
  -- piece 5
  have f5_v49 := cut5 _ x3 x8 f4_x3 f4_x8
  have f5_x4 := keep hW5 _ (r := main_arg4) (by decide) f4_x4
  have f5_x9 := keep hW5 _ (r := main_arg9) (by decide) f4_x9
  have f5_x10 := keep hW5 _ (r := main_arg10) (by decide) f4_x10
  have f5_v35 := keep hW5 _ (r := main_v35) (by decide) f4_v35
  have f5_v42 := keep hW5 _ (r := main_v42) (by decide) f4_v42
  -- piece 6
  have f6_v56 := cut6 _ x0 x1 x2 x5 x6 x9 f5_v35 f5_x9
  have f6_x4 := keep hW6 _ (r := main_arg4) (by decide) f5_x4
  have f6_x10 := keep hW6 _ (r := main_arg10) (by decide) f5_x10
  have f6_v42 := keep hW6 _ (r := main_v42) (by decide) f5_v42
  have f6_v49 := keep hW6 _ (r := main_v49) (by decide) f5_v49
  -- piece 7
  have f7_v68 := cut7 _ x4 x10 f6_x4 f6_x10
  have f7_v42 := keep hW7 _ (r := main_v42) (by decide) f6_v42
  have f7_v49 := keep hW7 _ (r := main_v49) (by decide) f6_v49
  have f7_v56 := keep hW7 _ (r := main_v56) (by decide) f6_v56
  -- piece 8
  have f8_v79 := cut8 _ x0 x1 x2 x4 x5 x6 x7 x10 f7_v68 f7_v42
  have f8_v49 := keep hW8 _ (r := main_v49) (by decide) f7_v49
  have f8_v56 := keep hW8 _ (r := main_v56) (by decide) f7_v56
  have f8_v68 := keep hW8 _ (r := main_v68) (by decide) f7_v68
  -- piece 9
  have f9_v90 := cut9 _ x3 x4 x8 x10 f8_v68 f8_v49
  have f9_v56 := keep hW9 _ (r := main_v56) (by decide) f8_v56
  have f9_v68 := keep hW9 _ (r := main_v68) (by decide) f8_v68
  have f9_v79 := keep hW9 _ (r := main_v79) (by decide) f8_v79
  -- piece 10
  have f10_v101 := cut10 _ x0 x1 x2 x4 x5 x6 x9 x10 f9_v68 f9_v56
  have f10_v79 := keep hW10 _ (r := main_v79) (by decide) f9_v79
  have f10_v90 := keep hW10 _ (r := main_v90) (by decide) f9_v90
  -- piece 11
  have f11_v104 := cut11 _ x0 x1 x2 x3 x4 x5 x6 x7 x8 x9 x10 f10_v79 f10_v90 f10_v101
  exact f11_v104

/-- On every device, for any float values, from any memory with zero counters: every weakly fair execution of
    @main terminates with the result buffer at `ReadP.val_main_v104` of the arguments' launch contents and the
    argument buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v104)
          = ReadP.val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v104).trans
        (result_eq (launchContents m c) _ _ _ _ _ _ _ _ _ _ _ rfl rfl rfl rfl rfl rfl rfl rfl rfl rfl rfl),
      (h c main_arg0).trans (after_of_writes_sub ops _ hWall (by decide)),
      (h c main_arg1).trans (after_of_writes_sub ops _ hWall (by decide)),
      (h c main_arg2).trans (after_of_writes_sub ops _ hWall (by decide)),
      (h c main_arg3).trans (after_of_writes_sub ops _ hWall (by decide)),
      (h c main_arg4).trans (after_of_writes_sub ops _ hWall (by decide)),
      (h c main_arg5).trans (after_of_writes_sub ops _ hWall (by decide)),
      (h c main_arg6).trans (after_of_writes_sub ops _ hWall (by decide)),
      (h c main_arg7).trans (after_of_writes_sub ops _ hWall (by decide)),
      (h c main_arg8).trans (after_of_writes_sub ops _ hWall (by decide)),
      (h c main_arg9).trans (after_of_writes_sub ops _ hWall (by decide)),
      (h c main_arg10).trans (after_of_writes_sub ops _ hWall (by decide))⟩)
    (run_seq scopedRefs_eq scopedSems_eq defs main (fun _ => ops) main_eq (fun _ => ops_sub) m ρ (fun _ => ops_fresh))

end Cert.ReferenceIdeal.RefRun

end
-- ==== Proof.lean ====
/-
  The certificate: the kernel program, its idealization and the idealized reference all run to the end with
  their arguments unchanged, and the two idealized programs end with the same scores.

  Both programs compute, for a graph with 100000 nodes and 128 features, two rounds of "sum the features of
  the neighbours, apply one linear layer with bias, floor at zero", average the two snapshots of 50000 entities,
  gather head, relation, tail and hyperplane-normal rows for 131072 triples, and score each triple by the
  length of `ĥ + r̂ - t̂`, each of the three projected off the unit normal and normalised. The kernel program
  does the two linear layers and the scoring in three kernel launches over row blocks, the reference in whole-array
  host operations; gathering, scatter-adding and averaging are the same host operations in both.

  Over exact extended reals the two agree entry by entry with no algebraic law beyond reading a matrix product
  and a row sum as the same finite sums (narrowing to bf16 is the identity; both sides use the same floor
  under a length and the same zero). So the precondition is never opened. The pieces:
  `Rows` (the row operations both sides are read against), `KerPay` (the kernel bodies at an index), `KerBlocks`
  (from blocks to whole arrays, per launch), `KRun` (the kernel program's run with its result named), `KerFold`
  (the result walked back to the argument arrays, meeting the reference's stages), `ReadP` / `RefRows` (the
  reference's stages, and its layers and scores row by row), `RefRun` (the reference's run).
-/
import proofs.«134859_j57037165691116_1_alg».proof.Defs
import proofs.«134859_j57037165691116_1_alg».proof.Proof.Gen.Kernel
import proofs.«134859_j57037165691116_1_alg».proof.Proof.Gen.Kernel.Frame
import proofs.«134859_j57037165691116_1_alg».proof.Proof.Gen.KernelIdeal
import proofs.«134859_j57037165691116_1_alg».proof.Proof.Gen.KernelIdeal.Frame
import proofs.«134859_j57037165691116_1_alg».proof.Proof.Gen.ReferenceIdeal
import proofs.«134859_j57037165691116_1_alg».proof.Proof.Gen.Pre_finite_inputs
import proofs.«134859_j57037165691116_1_alg».proof.Proof.KRun
import proofs.«134859_j57037165691116_1_alg».proof.Proof.KerFold
import proofs.«134859_j57037165691116_1_alg».proof.Proof.RefRun
import Idealize.ShloMosaic.Adequacy
import Idealize.ShloMosaic.Init

noncomputable section

namespace Cert.Proof

open Idealize.ShloMosaic Idealize.ShloMosaic.TcCoe Idealize.SL.Sem

/-- The kernel program as printed runs to the end, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference: its run, the result forgotten. -/
theorem frame_ri : Cert.frame_ReferenceIdeal := fun m ρ _ =>
  (θ_run (Cert.ReferenceIdeal.defs (F := Ideal)) _ _).mono (fun _ h c => (h c).2) (Cert.ReferenceIdeal.RefRun.run m ρ)

/-- The idealization rewrote no operation: nothing to restate. -/
theorem preserves : Cert.preserves_Kernel_KernelIdeal := trivial

/-- From memories agreeing on the arguments both idealized programs end with the reference's last stage of the
    (kernel side's) argument arrays as their result. -/
theorem algebraic : Cert.algebraic_KernelIdeal_ReferenceIdeal := by
  intro m ρ m' ρ' _ hagree
  refine ⟨fun c => Cert.ReferenceIdeal.ReadP.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun r h c => ⟨(h c).1.trans (Cert.KernelIdeal.Fold.result_eq m ρ c), (h c).2⟩) (Cert.KernelIdeal.Whole.run m ρ)
  · refine (θ_run (Cert.ReferenceIdeal.defs (F := Ideal)) _ _).mono (fun r h c => ⟨(h c).1.trans ?_, (h c).2⟩) (Cert.ReferenceIdeal.RefRun.run m' ρ')
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
